-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x128 : Shape := ⟨2, ![16, 128]⟩
abbrev S1x16 : Shape := ⟨2, ![1, 16]⟩
abbrev S16x10000 : Shape := ⟨2, ![16, 10000]⟩
abbrev S400x10000 : Shape := ⟨2, ![400, 10000]⟩
abbrev S10000x16 : Shape := ⟨2, ![10000, 16]⟩
abbrev S400x16 : Shape := ⟨2, ![400, 16]⟩

abbrev nBuf : Space → Nat
  | .hbm => 8
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S1x16, .f32⟩
  | .hbm, ⟨6, _⟩ => ⟨S16x10000, .f32⟩
  | .hbm, ⟨7, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S16x128, .f32⟩
  | .local _ .vmem, ⟨4, _⟩ => ⟨S1x16, .f32⟩
  | .local _ .vmem, ⟨5, _⟩ => ⟨S16x10000, .f32⟩
  | .local _ .vmem, ⟨6, _⟩ => ⟨S10000x16, .f32⟩
  | .local _ .vmem, ⟨7, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_6 : Index := 0#32
  ![v11.toNat, 0]
def k0_cond2 (i : grid0.Coords) : BitVec 1 :=
  let arg0 : BitVec 32 := BitVec.ofNat 32 (i 0).val
  let c24_i32 : BitVec 32 := 24#32
  let v15 : BitVec 1 := Scalar.cmpi .eq arg0 c24_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x10000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S128x16_S16x128_1_0 : S128x16.Transposes [1, 0] S16x128
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  h_S400x16 : 0 < S400x16.numel
  shapeCasts_S400x16_S400x16 : S400x16.ShapeCasts S400x16
  transposes_S10000x16_p1_0_S16x10000 : S10000x16.Transposes [1, 0] S16x10000
  inb_S16x10000_S16x10000_0_0 : ∀ a, (![0, 0] : Fin 2 → Nat) a + S16x10000.size a ≤ S16x10000.size a
  h_S16x10000 : 0 < S16x10000.numel
  transposes_S16x10000_S10000x16_1_0 : S16x10000.Transposes [1, 0] S10000x16
  dot_S10000x128_S16x128_S10000x16_1_1_0_0_n_n_wf : DotDims.WF S10000x128 S16x128 S10000x16 [1] [1] [0] [0] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x10000.size a ≤ S16x10000.size a
  hwx0_4 : ∀ i : grid0.Coords, EltTy.bits .f32 = 32 ∨ (Rect.block (s := S16x10000) S16x10000.size (cc0_transform_4 i) (hinb0_4 i)).WholeWords (EltTy.packing .f32)

variable [Facts₀]

def dot_S10000x128_S16x128_S10000x16_1_1_0_0_n_n : DotDims S10000x128 S16x128 S10000x16 where
  lhsContracting := [1]
  rhsContracting := [1]
  lhsNonContracting := [0]
  rhsNonContracting := [0]
  lhsBatch := []
  rhsBatch := []
  wf := dot_S10000x128_S16x128_S10000x16_1_1_0_0_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x10000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KBSetup.lean ====
import proofs.«180025_g1580547969797_cont_week2b_876_14_alg».proof.Proof.Gen.Kernel.Frame
import proofs.«180025_g1580547969797_cont_week2b_876_14_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid of 25 points

Where the body's two conditionals hold, which accumulator rows a point stores, when the output window is idle and when
it is written back, and the buffers the body is called with. -/

/-! ## The two branch conditions of the body, decided over the 25 grid points

The body computes the feature product once, at the first point, and transposes the accumulated rows into the
output block once, at the last point. -/

/-- The first conditional's test: the grid coordinate is zero. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second conditional's test: the grid coordinate is the last one, 24. -/
abbrev isLast (i : grid0.Coords) : Prop := k0_cond2 i = 1#1
theorem isLast_iff : ∀ t : Fin cfg0.N, isLast (grid0.coords t) ↔ t.val = 24 :=
  (by decide +kernel : ∀ t : Fin grid0.N, isLast (grid0.coords t) ↔ t.val = 24)

/-- Point `t` stores rows `[400 t, 400 t + 400)` of the accumulator, all 16 columns. -/
theorem rowOffset : ∀ t : Fin cfg0.N, k0_off1 (grid0.coords t) = ![400 * t.val, 0] :=
  (by decide +kernel : ∀ t : Fin grid0.N, k0_off1 (grid0.coords t) = ![400 * t.val, 0])

/-- No input window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle exactly away from the last point, where alone the body stores into it, -/
theorem idle4_iff : ∀ t : Fin cfg0.N, cfg0.idle 4 (grid0.coords t) = true ↔ t.val ≠ 24 :=
  (by decide +kernel : ∀ t : Fin grid0.N, cfg0.idle 4 (grid0.coords t) = true ↔ t.val ≠ 24)
/-- and it is written back exactly at the last point. -/
theorem flush4_iff : ∀ t : Fin cfg0.N, (cfg0.win 4).flush t = true ↔ t.val = 24 :=
  (by decide +kernel : ∀ t : Fin grid0.N, win0_4.flush t = true ↔ t.val = 24)

/-! ## The memrefs the body is called with -/

abbrev mx (t : Fin cfg0.N) : Memref sig .tc .vmem S10000x128 .f32 := win0_0.stage (cfg0.slots t 0)
abbrev hmx (t : Fin cfg0.N) : (mx t).IsWhole := hstage0_0 ((cfg0.slots t 0).cast nbuf0_0)
abbrev madj (t : Fin cfg0.N) : Memref sig .tc .vmem S400x10000 .f32 := win0_1.stage (cfg0.slots t 1)
abbrev hmadj (t : Fin cfg0.N) : (madj t).IsWhole := hstage0_1 ((cfg0.slots t 1).cast nbuf0_1)
abbrev mwt (t : Fin cfg0.N) : Memref sig .tc .vmem S16x128 .f32 := win0_2.stage (cfg0.slots t 2)
abbrev hmwt (t : Fin cfg0.N) : (mwt t).IsWhole := hstage0_2 ((cfg0.slots t 2).cast nbuf0_2)
abbrev mb (t : Fin cfg0.N) : Memref sig .tc .vmem S1x16 .f32 := win0_3.stage (cfg0.slots t 3)
abbrev hmb (t : Fin cfg0.N) : (mb t).IsWhole := hstage0_3 ((cfg0.slots t 3).cast nbuf0_3)
abbrev mout (t : Fin cfg0.N) : Memref sig .tc .vmem S16x10000 .f32 := win0_4.stage (cfg0.slots t 4)
abbrev hmout (t : Fin cfg0.N) : (mout t).IsWhole := hstage0_4 ((cfg0.slots t 4).cast nbuf0_4)
/-- The two scratch buffers: the feature product and the row accumulator. -/
abbrev msup : Memref sig .tc .vmem S10000x16 .f32 := Memref.whole cc0_scratch0
abbrev macc : Memref sig .tc .vmem S10000x16 .f32 := Memref.whole cc0_scratch1

/-- What the launch hands the region beside the windows: both scratch buffers at some contents and the generator register. -/
theorem PhiA_eq (c : Dev nD) :
    (Pipeline.ΦA spec0 c : sProp 𝕄)
      = iprop(iprop((∃ d, owns (c : Thread nD τ) msup fullShare d) ∗ (∃ d, owns (c : Thread nD τ) macc fullShare d)) ∗ (∃ r, prngReg c r)) := by
  unfold Pipeline.ΦA; rw [scopedRest0_eq]; simp only [msup, macc, owns_whole]; try rfl

end Cert.Kernel.Hand

end
-- ==== Proof.KBRunFirst.lean ====
import proofs.«180025_g1580547969797_cont_week2b_876_14_alg».proof.Proof.KBSetup
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at the first point -/

set_option maxHeartbeats 1000000 in
/-- The first point: the body first multiplies the features into the transposed weights and stores the whole product
    into the first scratch buffer, over whatever it held, then does a middle point's work on that product. The pieces
    both scratch buffers end with are found by the run. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : isFirst i) (hc1 : ¬isLast i)
    (x0 : Vec F S10000x128 .f32) (x1 : Vec F S400x10000 .f32) (x2 : Vec F S16x128 .f32) (x3 : Vec F S1x16 .f32) (xs0 : Vec F S10000x16 .f32) (xs1 : Vec F S10000x16 .f32) :
    { LS : List (View.Piece (Elt F) S10000x16 .f32) × List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (arg6.view.loc (c : Thread nD τ) ↦[arg6.view.set]{fullShare} arg6.view.writes (Elt F) (harg6.unread xs0) LS.1)
                ∗ (arg7.view.loc (c : Thread nD τ) ↦[arg7.view.set]{fullShare} arg7.view.writes (Elt F) (harg7.unread xs1) LS.2)) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨⟨?_, ?_⟩, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexact HS0
    iexact HS1

end Cert.Kernel.Hand

end
-- ==== Proof.KBRunMid.lean ====
import proofs.«180025_g1580547969797_cont_week2b_876_14_alg».proof.Proof.KBSetup
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at a middle point -/

set_option maxHeartbeats 1000000 in
/-- A middle point (neither first nor last): the body multiplies its 400 adjacency rows into the feature product it
    finds in the first scratch buffer, adds the bias row and stores the 400 result rows into the accumulator; the
    pieces the accumulator ends with are found by the run. -/
noncomputable def runMid (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : ¬isLast i)
    (x1 : Vec F S400x10000 .f32) (x3 : Vec F S1x16 .f32) (xs0 : Vec F S10000x16 .f32) (xs1 : Vec F S10000x16 .f32) :
    { LS1 : List (View.Piece (Elt F) S10000x16 .f32) //
      ∀ (E : Set ℕ) (K : PUnit → sProp 𝕄),
        iprop(owns (c : Thread nD τ) arg2 fullShare x1 ∗ owns (c : Thread nD τ) arg4 fullShare x3 ∗ owns (c : Thread nD τ) arg6 fullShare xs0 ∗ owns (c : Thread nD τ) arg7 fullShare xs1
            ∗ (iprop(owns (c : Thread nD τ) arg2 fullShare x1 ∗ owns (c : Thread nD τ) arg4 fullShare x3 ∗ owns (c : Thread nD τ) arg6 fullShare xs0 ∗ (arg7.view.loc (c : Thread nD τ) ↦[arg7.view.set]{fullShare} arg7.view.writes (Elt F) (harg7.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨?_, fun E K => ?run⟩
  case run =>
    simp only [cc0__gcn_body_eq_skeleton]; unfold cc0__gcn_body_skel
    unfold owns
    iintro ⟨⟨%f1, %hf1, H1⟩, ⟨%f3, %hf3, H3⟩, ⟨%fs0, %hfs0, HS0⟩, ⟨%fs1, %hfs1, HS1⟩, Hk⟩
    obtain rfl := harg2.eq_unread hf1; obtain rfl := harg4.eq_unread hf3; obtain rfl := harg6.eq_unread hfs0; obtain rfl := harg7.eq_unread hfs1
    sl_exec (disch := first | exact hc0 | exact hc1)
    sl_step
    iapply Hk
    isplitl [H1]
    · iexists _; isplitr; · ipureintro; exact harg2.read_unread _
      iexact H1
    isplitl [H3]
    · iexists _; isplitr; · ipureintro; exact harg4.read_unread _
      iexact H3
    isplitl [HS0]
    · iexists _; isplitr; · ipureintro; exact harg6.read_unread _
      iexact HS0
    iexact HS1

end Cert.Kernel.Hand

end
-- ==== Proof.KBRunLast.lean ====
import proofs.«180025_g1580547969797_cont_week2b_876_14_alg».proof.Proof.KBSetup
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at the last point -/

set_option maxHeartbeats 1000000 in
/-- The last point: a middle point's work, after which the body loads the whole accumulator and stores its transpose
    over the whole output block. The pieces the accumulator and the output block end with are found by the run. -/
noncomputable def runLast (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : isLast i)
    (x1 : Vec F S400x10000 .f32) (x3 : Vec F S1x16 .f32) (x4 : Vec F S16x10000 .f32) (xs0 : Vec F S10000x16 .f32) (xs1 : Vec F S10000x16 .f32) :
    { LS : List (View.Piece (Elt F) S10000x16 .f32) × List (View.Piece (Elt F) S16x10000 .f32) //
      ∀ (E : Set ℕ) (K : PUnit → sProp 𝕄),
        iprop(owns (c : Thread nD τ) arg2 fullShare x1 ∗ owns (c : Thread nD τ) arg4 fullShare x3 ∗ owns (c : Thread nD τ) arg5 fullShare x4 ∗ owns (c : Thread nD τ) arg6 fullShare xs0 ∗ owns (c : Thread nD τ) arg7 fullShare xs1
            ∗ (iprop(owns (c : Thread nD τ) arg2 fullShare x1 ∗ owns (c : Thread nD τ) arg4 fullShare x3
                ∗ (arg5.view.loc (c : Thread nD τ) ↦[arg5.view.set]{fullShare} arg5.view.writes (Elt F) (harg5.unread x4) LS.2)
                ∗ owns (c : Thread nD τ) arg6 fullShare xs0
                ∗ (arg7.view.loc (c : Thread nD τ) ↦[arg7.view.set]{fullShare} arg7.view.writes (Elt F) (harg7.unread xs1) LS.1)) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨⟨?_, ?_⟩, fun E K => ?run⟩
  case run =>
    simp only [cc0__gcn_body_eq_skeleton]; unfold cc0__gcn_body_skel
    unfold owns
    iintro ⟨⟨%f1, %hf1, H1⟩, ⟨%f3, %hf3, H3⟩, ⟨%f4, %hf4, H4⟩, ⟨%fs0, %hfs0, HS0⟩, ⟨%fs1, %hfs1, HS1⟩, Hk⟩
    obtain rfl := harg2.eq_unread hf1; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H1]
    · iexists _; isplitr; · ipureintro; exact harg2.read_unread _
      iexact H1
    isplitl [H3]
    · iexists _; isplitr; · ipureintro; exact harg4.read_unread _
      iexact H3
    isplitl [H4]; · iexact H4
    isplitl [HS0]
    · iexists _; isplitr; · ipureintro; exact harg6.read_unread _
      iexact HS0
    iexact HS1

end Cert.Kernel.Hand

end
-- ==== Proof.KBPieces.lean ====
import proofs.«180025_g1580547969797_cont_week2b_876_14_alg».proof.Proof.KBRunFirst
import proofs.«180025_g1580547969797_cont_week2b_876_14_alg».proof.Proof.KBRunMid
import proofs.«180025_g1580547969797_cont_week2b_876_14_alg».proof.Proof.KBRunLast
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each point's stores leave

Each run's stores as lists of pieces whose payloads are the body's arithmetic of the contents the buffers were handed at:
a load through the whole-shape rectangle reads the contents, and a load of the feature product just stored reads its payload. -/

/-- The zero offsets of a rank-2 rectangle, however spelt. -/
theorem zeroOff : (![0, 0] : Fin 2 → ℕ) = fun _ => 0 := by funext a; fin_cases a <;> rfl

/-- One store through the whole-shape rectangle reads back as its payload, whatever the buffer held. -/
theorem read_wholePiece {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  exact View.read_writes_whole v f w

/-- A middle point leaves ONE piece in the accumulator: its 400 rows, holding the block product plus bias. -/
theorem runMid_pieces (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : ¬isLast i)
    (x1 : Vec F S400x10000 .f32) (x3 : Vec F S1x16 .f32) (xs0 : Vec F S10000x16 .f32) (xs1 : Vec F S10000x16 .f32) :
    (runMid c i arg1 harg1 arg2 harg2 arg3 harg3 arg4 harg4 arg5 harg5 arg6 harg6 arg7 harg7 hc0 hc1 x1 x3 xs0 xs1).1
      = [⟨Rect.unit (s := S10000x16) (k0_off1 i) S400x16.size (k0_off1_inb i), k0_pay2 x1 xs0 x3⟩] := by
  unfold runMid
  dsimp only
  simp only [View.readAt_eq_ld, harg2.read_unread, harg6.read_unread, harg4.read_unread,
    View.ld_unit_zero (S := S400x10000) zeroOff, View.ld_unit_zero (S := S10000x16) zeroOff, View.ld_unit_zero (S := S1x16) zeroOff]

/-- The first point leaves the whole feature product in the first scratch buffer, -/
theorem runFirst_pieces_sup (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : isFirst i) (hc1 : ¬isLast i)
    (x0 : Vec F S10000x128 .f32) (x1 : Vec F S400x10000 .f32) (x2 : Vec F S16x128 .f32) (x3 : Vec F S1x16 .f32) (xs0 : Vec F S10000x16 .f32) (xs1 : Vec F S10000x16 .f32) :
    (runFirst c i arg1 harg1 arg2 harg2 arg3 harg3 arg4 harg4 arg5 harg5 arg6 harg6 arg7 harg7 hc0 hc1 x0 x1 x2 x3 xs0 xs1).1.1
      = [⟨Rect.unit (s := S10000x16) ![0, 0] S10000x16.size inb_S10000x16_S10000x16_0_0, k0_pay1 x0 x2⟩] := by
  unfold runFirst
  dsimp only
  sl_unfold_words
  simp only [View.readAt_eq_ld, harg1.read_unread, harg3.read_unread,
    View.ld_unit_zero (S := S10000x128) zeroOff, View.ld_unit_zero (S := S16x128) zeroOff]

/-- and its 400 rows in the accumulator, computed from that product. -/
theorem runFirst_pieces_acc (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : isFirst i) (hc1 : ¬isLast i)
    (x0 : Vec F S10000x128 .f32) (x1 : Vec F S400x10000 .f32) (x2 : Vec F S16x128 .f32) (x3 : Vec F S1x16 .f32) (xs0 : Vec F S10000x16 .f32) (xs1 : Vec F S10000x16 .f32) :
    (runFirst c i arg1 harg1 arg2 harg2 arg3 harg3 arg4 harg4 arg5 harg5 arg6 harg6 arg7 harg7 hc0 hc1 x0 x1 x2 x3 xs0 xs1).1.2
      = [⟨Rect.unit (s := S10000x16) (k0_off1 i) S400x16.size (k0_off1_inb i), k0_pay2 x1 (k0_pay1 x0 x2) x3⟩] := by
  unfold runFirst
  dsimp only
  sl_unfold_words
  simp only [View.readAt_eq_ld, harg1.read_unread, harg2.read_unread, harg3.read_unread, harg4.read_unread,
    View.ld_unit_zero (S := S10000x128) zeroOff, View.ld_unit_zero (S := S16x128) zeroOff,
    View.ld_unit_zero (S := S400x10000) zeroOff, View.ld_unit_zero (S := S1x16) zeroOff,
    View.readCov_unit_zero arg6.view zeroOff]

/-- The last point leaves its 400 rows in the accumulator, -/
theorem runLast_pieces_acc (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : isLast i)
    (x1 : Vec F S400x10000 .f32) (x3 : Vec F S1x16 .f32) (x4 : Vec F S16x10000 .f32) (xs0 : Vec F S10000x16 .f32) (xs1 : Vec F S10000x16 .f32) :
    (runLast c i arg1 harg1 arg2 harg2 arg3 harg3 arg4 harg4 arg5 harg5 arg6 harg6 arg7 harg7 hc0 hc1 x1 x3 x4 xs0 xs1).1.1
      = [⟨Rect.unit (s := S10000x16) (k0_off1 i) S400x16.size (k0_off1_inb i), k0_pay2 x1 xs0 x3⟩] := by
  unfold runLast
  dsimp only
  sl_unfold_words
  simp only [View.readAt_eq_ld, harg2.read_unread, harg6.read_unread, harg4.read_unread,
    View.ld_unit_zero (S := S400x10000) zeroOff, View.ld_unit_zero (S := S10000x16) zeroOff, View.ld_unit_zero (S := S1x16) zeroOff]

/-- and in the output block the transpose of the whole accumulator as that store left it. -/
theorem runLast_pieces_out (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : isLast i)
    (x1 : Vec F S400x10000 .f32) (x3 : Vec F S1x16 .f32) (x4 : Vec F S16x10000 .f32) (xs0 : Vec F S10000x16 .f32) (xs1 : Vec F S10000x16 .f32) :
    (runLast c i arg1 harg1 arg2 harg2 arg3 harg3 arg4 harg4 arg5 harg5 arg6 harg6 arg7 harg7 hc0 hc1 x1 x3 x4 xs0 xs1).1.2
      = [⟨Rect.unit (s := S16x10000) ![0, 0] S16x10000.size inb_S16x10000_S16x10000_0_0,
          k0_pay3 (arg7.view.read (Elt F) (arg7.view.writes (Elt F) (harg7.unread xs1)
            [⟨Rect.unit (s := S10000x16) (k0_off1 i) S400x16.size (k0_off1_inb i), k0_pay2 x1 xs0 x3⟩]))⟩] := by
  unfold runLast
  dsimp only
  sl_unfold_words
  simp only [View.readAt_eq_ld, harg2.read_unread, harg6.read_unread, harg4.read_unread,
    View.ld_unit_zero (S := S400x10000) zeroOff, View.ld_unit_zero (S := S10000x16) zeroOff, View.ld_unit_zero (S := S1x16) zeroOff]

end Cert.Kernel.Hand

end
-- ==== Proof.KBAcc.lean ====
import proofs.«180025_g1580547969797_cont_week2b_876_14_alg».proof.Proof.KBSetup
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The feature product and the accumulator, row block by row block -/

variable (m : (ℓ : Loc nD τ sig) → Buf (Elt F) ℓ) (ρ : Dev nD → PrngReg)

/-! ## What the two scratch buffers hold, as functions of the argument blocks

The feature product is computed once, from the blocks of the first point (windows 0 and 2 never move); the
accumulator's rows `[400 t, 400 t + 400)` are point `t`'s block of adjacency rows times that product, plus the bias row. -/

/-- The grid's first point. -/
def t0 : Fin cfg0.N := ⟨0, by rw [show cfg0.N = 25 from N_0]; exact Nat.zero_lt_succ _⟩

/-- The feature product `x · W` as the first point computes it. -/
def support (c : Dev nD) : Vec F S10000x16 .f32 := k0_pay1 (iblk m c 0 t0) (iblk m c 2 t0)

theorem support_eq (c : Dev nD) (t : Fin cfg0.N) (hz : t.val = 0) : support m c = k0_pay1 (iblk m c 0 t) (iblk m c 2 t) := by
  have h : t = t0 := Fin.ext hz
  subst h; rfl

/-- The 400 rows point `t` computes. -/
def slab (c : Dev nD) (t : Fin cfg0.N) : Vec F S400x16 .f32 := k0_pay2 (iblk m c 1 t) (support m c) (iblk m c 3 t)

theorem slab_congr (c : Dev nD) (t t' : Fin cfg0.N) (x x' : S400x16.Idx) (ht : t.val = t'.val) (hx : ∀ a, (x a).val = (x' a).val) :
    slab m c t x = slab m c t' x' := by
  obtain rfl := Fin.ext ht
  exact congrArg _ (funext fun a => Fin.ext (hx a))

/-- The whole accumulator once every point has run: row `r` is row `r % 400` of point `r / 400`'s rows. -/
def accFull (c : Dev nD) : Vec F S10000x16 .f32 := fun y =>
  slab m c ⟨(y 0).val / 400, by
      rw [show cfg0.N = 25 from N_0]
      exact Nat.div_lt_of_lt_mul (ValueIdx.idx2_lt0 (n0 := 10000) (n1 := 16) y)⟩
    (ValueIdx.ix2 (⟨(y 0).val % 400, Nat.mod_lt _ (by decide)⟩ : Fin 400) (⟨(y 1).val, ValueIdx.idx2_lt1 (n0 := 10000) (n1 := 16) y⟩ : Fin 16))

/-- Contents of the accumulator that are right on the rows the first `n` points have stored. -/
def AccUpTo (c : Dev nD) (n : ℕ) (d : Vec F S10000x16 .f32) : Prop :=
  ∀ y : S10000x16.Idx, (y 0).val < 400 * n → d y = accFull m c y

/-- Point `t`'s store of its rows over contents right below row `400 t` leaves contents right below row `400 (t + 1)`. -/
theorem AccUpTo.step (c : Dev nD) (t : Fin cfg0.N) (d : Vec F S10000x16 .f32) (hd : AccUpTo m c t.val d)
    (arg7 : Memref sig .tc .vmem S10000x16 .f32) (harg7 : arg7.IsWhole) :
    AccUpTo m c (t.val + 1) (arg7.view.read (Elt F) (arg7.view.writes (Elt F) (harg7.unread d)
      [⟨Rect.unit (s := S10000x16) (k0_off1 (grid0.coords t)) S400x16.size (k0_off1_inb (grid0.coords t)), slab m c t⟩])) := by
  intro y hy
  rw [View.read_writes_cons_rows (o := 400 * t.val) (W := 400) arg7.view (harg7.unread d) (k0_off1_inb (grid0.coords t)) (slab m c t) [] y (rowOffset t) rfl rfl]
  split
  · rename_i h
    unfold accFull
    refine slab_congr m c _ _ _ _ ?_ ?_
    · show t.val = (y 0).val / 400
      omega
    · intro a
      match a with
      | ⟨0, _⟩ => show (y 0).val - 400 * t.val = (y 0).val % 400; omega
      | ⟨1, _⟩ => show (y 1).val - 0 = (y 1).val; omega
  · rename_i h
    rw [View.writes_nil, harg7.read_unread]
    exact hd y (by omega)

/-- Contents right on all 10000 rows are the whole accumulator. -/
theorem AccUpTo.full (c : Dev nD) (d : Vec F S10000x16 .f32) (hd : AccUpTo m c 25 d) : d = accFull m c :=
  funext fun y => hd y (by have := ValueIdx.idx2_lt0 (n0 := 10000) (n1 := 16) y; omega)

/-- Any contents are right on no rows. -/
theorem AccUpTo.zero (c : Dev nD) (d : Vec F S10000x16 .f32) : AccUpTo m c 0 d := fun y hy => absurd hy (by omega)

/-- What the last point stores into the output block: the whole accumulator transposed. -/
def outFinal (c : Dev nD) : Vec F S16x10000 .f32 := k0_pay3 (accFull m c)

end Cert.Kernel.Hand

end
-- ==== Proof.KBData.lean ====
import proofs.«180025_g1580547969797_cont_week2b_876_14_alg».proof.Proof.KBPieces
import proofs.«180025_g1580547969797_cont_week2b_876_14_alg».proof.Proof.KBAcc
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The invariant between points, the body at every point, and the run -/

variable (m : (ℓ : Loc nD τ sig) → Buf (Elt F) ℓ) (ρ : Dev nD → PrngReg)

/-! ## The invariant between points

Before the first point both scratch buffers hold anything. After point `n - 1` the first holds the feature
product and the second is right on its first `400 n` rows. -/

def Phi (c : Dev nD) : (n : ℕ) → n ≤ cfg0.N → sProp 𝕄
  | 0, _ => Pipeline.ΦA spec0 c
  | n + 1, _ => iprop(iprop(owns (c : Thread nD τ) msup fullShare (support m c) ∗ (∃ d, ⌜AccUpTo m c (n + 1) d⌝ ∗ owns (c : Thread nD τ) macc fullShare d)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) msup fullShare (support m c) ∗ (∃ d, ⌜AccUpTo m c n d⌝ ∗ owns (c : Thread nD τ) macc fullShare d)) ∗ (∃ r, prngReg c r)) := by
  cases n with
  | zero => exact absurd rfl hz
  | succ n => rfl

/-! ## The pipeline's proof data -/

/-- The arrays as the region finds them; after the body each input's buffer at its block, the output's at the
    transposed accumulator (read only at the last point, the one point that is not idle for it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outFinal m c
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outFinal m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem leaves0 (c : Dev nD) (t : Fin cfg0.N) : (dats m 0 c).leavesExact 0 t = owns (c : Thread nD τ) (mx t) fullShare (iblk m c 0 t) := by
  unfold Dat.leavesExact; rw [live0 t, after0]
theorem leaves1 (c : Dev nD) (t : Fin cfg0.N) : (dats m 0 c).leavesExact 1 t = owns (c : Thread nD τ) (madj t) fullShare (iblk m c 1 t) := by
  unfold Dat.leavesExact; rw [live1 t, after1]
theorem leaves2 (c : Dev nD) (t : Fin cfg0.N) : (dats m 0 c).leavesExact 2 t = owns (c : Thread nD τ) (mwt t) fullShare (iblk m c 2 t) := by
  unfold Dat.leavesExact; rw [live2 t, after2]
theorem leaves3 (c : Dev nD) (t : Fin cfg0.N) : (dats m 0 c).leavesExact 3 t = owns (c : Thread nD τ) (mb t) fullShare (iblk m c 3 t) := by
  unfold Dat.leavesExact; rw [live3 t, after3]
/-- Away from the last point the output's buffer is handed back as found; -/
theorem leaves4_idle (c : Dev nD) (t : Fin cfg0.N) (h : t.val ≠ 24) :
    (dats m 0 c).leavesExact 4 t = iprop(∃ d, owns (c : Thread nD τ) (mout t) fullShare ((dats m 0 c).before 4 t d)) :=
  Dat.leavesExact_idle _ 4 t ((idle4_iff t).mpr h) (by
    cases hf : (cfg0.win 4).flush t
    · rfl
    · exact absurd ((flush4_iff t).mp hf) h)
/-- at the last point it holds the transposed accumulator. -/
theorem leaves4_last (c : Dev nD) (t : Fin cfg0.N) (h : t.val = 24) :
    (dats m 0 c).leavesExact 4 t = owns (c : Thread nD τ) (mout t) fullShare (outFinal m c) := by
  have hi : cfg0.idle 4 (grid0.coords t) = false := by
    cases hi : cfg0.idle 4 (grid0.coords t)
    · rfl
    · exact absurd h ((idle4_iff t).mp hi)
  unfold Dat.leavesExact; rw [hi, after4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (madj t) fullShare ((dats m 0 c).before 1 t d))
    ∗ (∃ d, owns (c : Thread nD τ) (mwt t) fullShare ((dats m 0 c).before 2 t d))
    ∗ (∃ d, owns (c : Thread nD τ) (mb t) fullShare ((dats m 0 c).before 3 t d))
    ∗ (∃ d, owns (c : Thread nD τ) (mout t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the first, a middle one or the last, each by its run; the invariant hands over the two
    scratch buffers and takes them back with the point's rows added to the rows the accumulator is right on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_pos m c _ _ (Nat.succ_ne_zero _)]
  rw [leaves0, leaves1, leaves2, leaves3]
  have hN : t.val < 25 := lt_of_lt_of_eq t.isLt (show cfg0.N = 25 from N_0)
  by_cases hz : t.val = 0
  · have hc0 : isFirst (grid0.coords t) := (isFirst_iff t).mpr hz
    have hc1 : ¬isLast (grid0.coords t) := fun h => by have := (isLast_iff t).mp h; omega
    rw [leaves4_idle m c t (by omega)]
    rw [Phi_castSucc m c t, Phi_zero m c _ _ hz, PhiA_eq]
    iintro ⟨⟨⟨⟨%ds0, HS0⟩, ⟨%ds1, HS1⟩⟩, Hg⟩, Ho, ⟨%d0, H0⟩, ⟨%d1, H1⟩, ⟨%d2, H2⟩, ⟨%d3, H3⟩, H4⟩
    iapply ((runFirst c (grid0.coords t) (mx t) (hmx t) (madj t) (hmadj t) (mwt t) (hmwt t) (mb t) (hmb t) (mout t) (hmout t) msup (Memref.isWhole_whole _) macc (Memref.isWhole_whole _) hc0 hc1 (iblk m c 0 t) (iblk m c 1 t) (iblk m c 2 t) (iblk m c 3 t) ds0 ds1).2 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]
        · unfold owns; iexists _; isplitr
          swap; · iexact HS0
          ipureintro
          rw [runFirst_pieces_sup, support_eq m c t hz]
          exact read_wholePiece _ _ zeroOff _ _
        · iexists _; isplitr
          swap
          · unfold owns; iexists _; isplitr
            swap; · iexact HS1
            ipureintro; rfl
          ipureintro
          rw [runFirst_pieces_acc, ← support_eq m c t hz]
          exact AccUpTo.step m c t ds1 (hz ▸ AccUpTo.zero m c ds1) macc _
      iexact Hg
    isplitl [Ho]; · iexact Ho
    isplitl [H0]; · iexact H0
    isplitl [H1]; · iexact H1
    isplitl [H2]; · iexact H2
    isplitl [H3]; · iexact H3
    iexact H4
  · have hc0 : ¬isFirst (grid0.coords t) := fun h => hz ((isFirst_iff t).mp h)
    rw [Phi_castSucc m c t, Phi_pos m c _ _ hz]
    by_cases hl : t.val = 24
    · have hc1 : isLast (grid0.coords t) := (isLast_iff t).mpr hl
      rw [leaves4_last m c t hl]
      iintro ⟨⟨⟨HS0, ⟨%ds1, %hds1, HS1⟩⟩, Hg⟩, Ho, ⟨%d0, H0⟩, ⟨%d1, H1⟩, ⟨%d2, H2⟩, ⟨%d3, H3⟩, ⟨%d4, H4⟩⟩
      iapply ((runLast c (grid0.coords t) (mx t) (hmx t) (madj t) (hmadj t) (mwt t) (hmwt t) (mb t) (hmb t) (mout t) (hmout t) msup (Memref.isWhole_whole _) macc (Memref.isWhole_whole _) hc0 hc1 (iblk m c 1 t) (iblk m c 3 t) ((dats m 0 c).before 4 t d4) (support m c) ds1).2 Set.univ _)
      isplitl [H1]; · iexact H1
      isplitl [H3]; · iexact H3
      isplitl [H4]; · iexact H4
      isplitl [HS0]; · iexact HS0
      isplitl [HS1]; · iexact HS1
      iintro ⟨H1, H3, H4, HS0, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          rw [runLast_pieces_acc]
          exact AccUpTo.step m c t ds1 hds1 macc _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      rw [runLast_pieces_out, read_wholePiece _ _ zeroOff]
      have hfull := AccUpTo.step m c t ds1 hds1 macc (Memref.isWhole_whole _)
      rw [hl] at hfull
      exact congrArg k0_pay3 (AccUpTo.full m c _ hfull)
    · have hc1 : ¬isLast (grid0.coords t) := fun h => hl ((isLast_iff t).mp h)
      rw [leaves4_idle m c t hl]
      iintro ⟨⟨⟨HS0, ⟨%ds1, %hds1, HS1⟩⟩, Hg⟩, Ho, ⟨%d0, H0⟩, ⟨%d1, H1⟩, ⟨%d2, H2⟩, ⟨%d3, H3⟩, H4⟩
      iapply ((runMid c (grid0.coords t) (mx t) (hmx t) (madj t) (hmadj t) (mwt t) (hmwt t) (mb t) (hmb t) (mout t) (hmout t) msup (Memref.isWhole_whole _) macc (Memref.isWhole_whole _) hc0 hc1 (iblk m c 1 t) (iblk m c 3 t) (support m c) ds1).2 Set.univ _)
      isplitl [H1]; · iexact H1
      isplitl [H3]; · iexact H3
      isplitl [HS0]; · iexact HS0
      isplitl [HS1]; · iexact HS1
      iintro ⟨H1, H3, HS0, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          rw [runMid_pieces]
          exact AccUpTo.step m c t ds1 hds1 macc _
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 25 := N_0; omega), PhiA_eq]
  iintro ⟨⟨HS0, ⟨%d, %hd, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; every array of the pipeline ends at what the proof data
    computes (the inputs unchanged, the output at the last point's write-back) and every other buffer at what the
    host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KISetup.lean ====
import proofs.«180025_g1580547969797_cont_week2b_876_14_alg».proof.Proof.Gen.KernelIdeal.Frame
import proofs.«180025_g1580547969797_cont_week2b_876_14_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid of 25 points

Where the body's two conditionals hold, which accumulator rows a point stores, when the output window is idle and when
it is written back, and the buffers the body is called with. -/

/-! ## The two branch conditions of the body, decided over the 25 grid points

The body computes the feature product once, at the first point, and transposes the accumulated rows into the
output block once, at the last point. -/

/-- The first conditional's test: the grid coordinate is zero. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second conditional's test: the grid coordinate is the last one, 24. -/
abbrev isLast (i : grid0.Coords) : Prop := k0_cond2 i = 1#1
theorem isLast_iff : ∀ t : Fin cfg0.N, isLast (grid0.coords t) ↔ t.val = 24 :=
  (by decide +kernel : ∀ t : Fin grid0.N, isLast (grid0.coords t) ↔ t.val = 24)

/-- Point `t` stores rows `[400 t, 400 t + 400)` of the accumulator, all 16 columns. -/
theorem rowOffset : ∀ t : Fin cfg0.N, k0_off1 (grid0.coords t) = ![400 * t.val, 0] :=
  (by decide +kernel : ∀ t : Fin grid0.N, k0_off1 (grid0.coords t) = ![400 * t.val, 0])

/-- No input window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle exactly away from the last point, where alone the body stores into it, -/
theorem idle4_iff : ∀ t : Fin cfg0.N, cfg0.idle 4 (grid0.coords t) = true ↔ t.val ≠ 24 :=
  (by decide +kernel : ∀ t : Fin grid0.N, cfg0.idle 4 (grid0.coords t) = true ↔ t.val ≠ 24)
/-- and it is written back exactly at the last point. -/
theorem flush4_iff : ∀ t : Fin cfg0.N, (cfg0.win 4).flush t = true ↔ t.val = 24 :=
  (by decide +kernel : ∀ t : Fin grid0.N, win0_4.flush t = true ↔ t.val = 24)

/-! ## The memrefs the body is called with -/

abbrev mx (t : Fin cfg0.N) : Memref sig .tc .vmem S10000x128 .f32 := win0_0.stage (cfg0.slots t 0)
abbrev hmx (t : Fin cfg0.N) : (mx t).IsWhole := hstage0_0 ((cfg0.slots t 0).cast nbuf0_0)
abbrev madj (t : Fin cfg0.N) : Memref sig .tc .vmem S400x10000 .f32 := win0_1.stage (cfg0.slots t 1)
abbrev hmadj (t : Fin cfg0.N) : (madj t).IsWhole := hstage0_1 ((cfg0.slots t 1).cast nbuf0_1)
abbrev mwt (t : Fin cfg0.N) : Memref sig .tc .vmem S16x128 .f32 := win0_2.stage (cfg0.slots t 2)
abbrev hmwt (t : Fin cfg0.N) : (mwt t).IsWhole := hstage0_2 ((cfg0.slots t 2).cast nbuf0_2)
abbrev mb (t : Fin cfg0.N) : Memref sig .tc .vmem S1x16 .f32 := win0_3.stage (cfg0.slots t 3)
abbrev hmb (t : Fin cfg0.N) : (mb t).IsWhole := hstage0_3 ((cfg0.slots t 3).cast nbuf0_3)
abbrev mout (t : Fin cfg0.N) : Memref sig .tc .vmem S16x10000 .f32 := win0_4.stage (cfg0.slots t 4)
abbrev hmout (t : Fin cfg0.N) : (mout t).IsWhole := hstage0_4 ((cfg0.slots t 4).cast nbuf0_4)
/-- The two scratch buffers: the feature product and the row accumulator. -/
abbrev msup : Memref sig .tc .vmem S10000x16 .f32 := Memref.whole cc0_scratch0
abbrev macc : Memref sig .tc .vmem S10000x16 .f32 := Memref.whole cc0_scratch1

/-- What the launch hands the region beside the windows: both scratch buffers at some contents and the generator register. -/
theorem PhiA_eq (c : Dev nD) :
    (Pipeline.ΦA spec0 c : sProp 𝕄)
      = iprop(iprop((∃ d, owns (c : Thread nD τ) msup fullShare d) ∗ (∃ d, owns (c : Thread nD τ) macc fullShare d)) ∗ (∃ r, prngReg c r)) := by
  unfold Pipeline.ΦA; rw [scopedRest0_eq]; simp only [msup, macc, owns_whole]; try rfl

end Cert.KernelIdeal.Hand

end
-- ==== Proof.KIRunFirst.lean ====
import proofs.«180025_g1580547969797_cont_week2b_876_14_alg».proof.Proof.KISetup
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at the first point -/

set_option maxHeartbeats 1000000 in
/-- The first point: the body first multiplies the features into the transposed weights and stores the whole product
    into the first scratch buffer, over whatever it held, then does a middle point's work on that product. The pieces
    both scratch buffers end with are found by the run. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : isFirst i) (hc1 : ¬isLast i)
    (x0 : Vec F S10000x128 .f32) (x1 : Vec F S400x10000 .f32) (x2 : Vec F S16x128 .f32) (x3 : Vec F S1x16 .f32) (xs0 : Vec F S10000x16 .f32) (xs1 : Vec F S10000x16 .f32) :
    { LS : List (View.Piece (Elt F) S10000x16 .f32) × List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (arg6.view.loc (c : Thread nD τ) ↦[arg6.view.set]{fullShare} arg6.view.writes (Elt F) (harg6.unread xs0) LS.1)
                ∗ (arg7.view.loc (c : Thread nD τ) ↦[arg7.view.set]{fullShare} arg7.view.writes (Elt F) (harg7.unread xs1) LS.2)) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨⟨?_, ?_⟩, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexact HS0
    iexact HS1

end Cert.KernelIdeal.Hand

end
-- ==== Proof.KIRunMid.lean ====
import proofs.«180025_g1580547969797_cont_week2b_876_14_alg».proof.Proof.KISetup
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at a middle point -/

set_option maxHeartbeats 1000000 in
/-- A middle point (neither first nor last): the body multiplies its 400 adjacency rows into the feature product it
    finds in the first scratch buffer, adds the bias row and stores the 400 result rows into the accumulator; the
    pieces the accumulator ends with are found by the run. -/
noncomputable def runMid (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : ¬isLast i)
    (x1 : Vec F S400x10000 .f32) (x3 : Vec F S1x16 .f32) (xs0 : Vec F S10000x16 .f32) (xs1 : Vec F S10000x16 .f32) :
    { LS1 : List (View.Piece (Elt F) S10000x16 .f32) //
      ∀ (E : Set ℕ) (K : PUnit → sProp 𝕄),
        iprop(owns (c : Thread nD τ) arg2 fullShare x1 ∗ owns (c : Thread nD τ) arg4 fullShare x3 ∗ owns (c : Thread nD τ) arg6 fullShare xs0 ∗ owns (c : Thread nD τ) arg7 fullShare xs1
            ∗ (iprop(owns (c : Thread nD τ) arg2 fullShare x1 ∗ owns (c : Thread nD τ) arg4 fullShare x3 ∗ owns (c : Thread nD τ) arg6 fullShare xs0 ∗ (arg7.view.loc (c : Thread nD τ) ↦[arg7.view.set]{fullShare} arg7.view.writes (Elt F) (harg7.unread xs1) LS1)) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨?_, fun E K => ?run⟩
  case run =>
    simp only [cc0__gcn_body_eq_skeleton]; unfold cc0__gcn_body_skel
    unfold owns
    iintro ⟨⟨%f1, %hf1, H1⟩, ⟨%f3, %hf3, H3⟩, ⟨%fs0, %hfs0, HS0⟩, ⟨%fs1, %hfs1, HS1⟩, Hk⟩
    obtain rfl := harg2.eq_unread hf1; obtain rfl := harg4.eq_unread hf3; obtain rfl := harg6.eq_unread hfs0; obtain rfl := harg7.eq_unread hfs1
    sl_exec (disch := first | exact hc0 | exact hc1)
    sl_step
    iapply Hk
    isplitl [H1]
    · iexists _; isplitr; · ipureintro; exact harg2.read_unread _
      iexact H1
    isplitl [H3]
    · iexists _; isplitr; · ipureintro; exact harg4.read_unread _
      iexact H3
    isplitl [HS0]
    · iexists _; isplitr; · ipureintro; exact harg6.read_unread _
      iexact HS0
    iexact HS1

end Cert.KernelIdeal.Hand

end
-- ==== Proof.KIRunLast.lean ====
import proofs.«180025_g1580547969797_cont_week2b_876_14_alg».proof.Proof.KISetup
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body at the last point -/

set_option maxHeartbeats 1000000 in
/-- The last point: a middle point's work, after which the body loads the whole accumulator and stores its transpose
    over the whole output block. The pieces the accumulator and the output block end with are found by the run. -/
noncomputable def runLast (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : isLast i)
    (x1 : Vec F S400x10000 .f32) (x3 : Vec F S1x16 .f32) (x4 : Vec F S16x10000 .f32) (xs0 : Vec F S10000x16 .f32) (xs1 : Vec F S10000x16 .f32) :
    { LS : List (View.Piece (Elt F) S10000x16 .f32) × List (View.Piece (Elt F) S16x10000 .f32) //
      ∀ (E : Set ℕ) (K : PUnit → sProp 𝕄),
        iprop(owns (c : Thread nD τ) arg2 fullShare x1 ∗ owns (c : Thread nD τ) arg4 fullShare x3 ∗ owns (c : Thread nD τ) arg5 fullShare x4 ∗ owns (c : Thread nD τ) arg6 fullShare xs0 ∗ owns (c : Thread nD τ) arg7 fullShare xs1
            ∗ (iprop(owns (c : Thread nD τ) arg2 fullShare x1 ∗ owns (c : Thread nD τ) arg4 fullShare x3
                ∗ (arg5.view.loc (c : Thread nD τ) ↦[arg5.view.set]{fullShare} arg5.view.writes (Elt F) (harg5.unread x4) LS.2)
                ∗ owns (c : Thread nD τ) arg6 fullShare xs0
                ∗ (arg7.view.loc (c : Thread nD τ) ↦[arg7.view.set]{fullShare} arg7.view.writes (Elt F) (harg7.unread xs1) LS.1)) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨⟨?_, ?_⟩, fun E K => ?run⟩
  case run =>
    simp only [cc0__gcn_body_eq_skeleton]; unfold cc0__gcn_body_skel
    unfold owns
    iintro ⟨⟨%f1, %hf1, H1⟩, ⟨%f3, %hf3, H3⟩, ⟨%f4, %hf4, H4⟩, ⟨%fs0, %hfs0, HS0⟩, ⟨%fs1, %hfs1, HS1⟩, Hk⟩
    obtain rfl := harg2.eq_unread hf1; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H1]
    · iexists _; isplitr; · ipureintro; exact harg2.read_unread _
      iexact H1
    isplitl [H3]
    · iexists _; isplitr; · ipureintro; exact harg4.read_unread _
      iexact H3
    isplitl [H4]; · iexact H4
    isplitl [HS0]
    · iexists _; isplitr; · ipureintro; exact harg6.read_unread _
      iexact HS0
    iexact HS1

end Cert.KernelIdeal.Hand

end
-- ==== Proof.KIPieces.lean ====
import proofs.«180025_g1580547969797_cont_week2b_876_14_alg».proof.Proof.KIRunFirst
import proofs.«180025_g1580547969797_cont_week2b_876_14_alg».proof.Proof.KIRunMid
import proofs.«180025_g1580547969797_cont_week2b_876_14_alg».proof.Proof.KIRunLast
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each point's stores leave

Each run's stores as lists of pieces whose payloads are the body's arithmetic of the contents the buffers were handed at:
a load through the whole-shape rectangle reads the contents, and a load of the feature product just stored reads its payload. -/

/-- The zero offsets of a rank-2 rectangle, however spelt. -/
theorem zeroOff : (![0, 0] : Fin 2 → ℕ) = fun _ => 0 := by funext a; fin_cases a <;> rfl

/-- One store through the whole-shape rectangle reads back as its payload, whatever the buffer held. -/
theorem read_wholePiece {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  exact View.read_writes_whole v f w

/-- A middle point leaves ONE piece in the accumulator: its 400 rows, holding the block product plus bias. -/
theorem runMid_pieces (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : ¬isLast i)
    (x1 : Vec F S400x10000 .f32) (x3 : Vec F S1x16 .f32) (xs0 : Vec F S10000x16 .f32) (xs1 : Vec F S10000x16 .f32) :
    (runMid c i arg1 harg1 arg2 harg2 arg3 harg3 arg4 harg4 arg5 harg5 arg6 harg6 arg7 harg7 hc0 hc1 x1 x3 xs0 xs1).1
      = [⟨Rect.unit (s := S10000x16) (k0_off1 i) S400x16.size (k0_off1_inb i), k0_pay2 x1 xs0 x3⟩] := by
  unfold runMid
  dsimp only
  simp only [View.readAt_eq_ld, harg2.read_unread, harg6.read_unread, harg4.read_unread,
    View.ld_unit_zero (S := S400x10000) zeroOff, View.ld_unit_zero (S := S10000x16) zeroOff, View.ld_unit_zero (S := S1x16) zeroOff]

/-- The first point leaves the whole feature product in the first scratch buffer, -/
theorem runFirst_pieces_sup (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : isFirst i) (hc1 : ¬isLast i)
    (x0 : Vec F S10000x128 .f32) (x1 : Vec F S400x10000 .f32) (x2 : Vec F S16x128 .f32) (x3 : Vec F S1x16 .f32) (xs0 : Vec F S10000x16 .f32) (xs1 : Vec F S10000x16 .f32) :
    (runFirst c i arg1 harg1 arg2 harg2 arg3 harg3 arg4 harg4 arg5 harg5 arg6 harg6 arg7 harg7 hc0 hc1 x0 x1 x2 x3 xs0 xs1).1.1
      = [⟨Rect.unit (s := S10000x16) ![0, 0] S10000x16.size inb_S10000x16_S10000x16_0_0, k0_pay1 x0 x2⟩] := by
  unfold runFirst
  dsimp only
  sl_unfold_words
  simp only [View.readAt_eq_ld, harg1.read_unread, harg3.read_unread,
    View.ld_unit_zero (S := S10000x128) zeroOff, View.ld_unit_zero (S := S16x128) zeroOff]

/-- and its 400 rows in the accumulator, computed from that product. -/
theorem runFirst_pieces_acc (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : isFirst i) (hc1 : ¬isLast i)
    (x0 : Vec F S10000x128 .f32) (x1 : Vec F S400x10000 .f32) (x2 : Vec F S16x128 .f32) (x3 : Vec F S1x16 .f32) (xs0 : Vec F S10000x16 .f32) (xs1 : Vec F S10000x16 .f32) :
    (runFirst c i arg1 harg1 arg2 harg2 arg3 harg3 arg4 harg4 arg5 harg5 arg6 harg6 arg7 harg7 hc0 hc1 x0 x1 x2 x3 xs0 xs1).1.2
      = [⟨Rect.unit (s := S10000x16) (k0_off1 i) S400x16.size (k0_off1_inb i), k0_pay2 x1 (k0_pay1 x0 x2) x3⟩] := by
  unfold runFirst
  dsimp only
  sl_unfold_words
  simp only [View.readAt_eq_ld, harg1.read_unread, harg2.read_unread, harg3.read_unread, harg4.read_unread,
    View.ld_unit_zero (S := S10000x128) zeroOff, View.ld_unit_zero (S := S16x128) zeroOff,
    View.ld_unit_zero (S := S400x10000) zeroOff, View.ld_unit_zero (S := S1x16) zeroOff,
    View.readCov_unit_zero arg6.view zeroOff]

/-- The last point leaves its 400 rows in the accumulator, -/
theorem runLast_pieces_acc (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : isLast i)
    (x1 : Vec F S400x10000 .f32) (x3 : Vec F S1x16 .f32) (x4 : Vec F S16x10000 .f32) (xs0 : Vec F S10000x16 .f32) (xs1 : Vec F S10000x16 .f32) :
    (runLast c i arg1 harg1 arg2 harg2 arg3 harg3 arg4 harg4 arg5 harg5 arg6 harg6 arg7 harg7 hc0 hc1 x1 x3 x4 xs0 xs1).1.1
      = [⟨Rect.unit (s := S10000x16) (k0_off1 i) S400x16.size (k0_off1_inb i), k0_pay2 x1 xs0 x3⟩] := by
  unfold runLast
  dsimp only
  sl_unfold_words
  simp only [View.readAt_eq_ld, harg2.read_unread, harg6.read_unread, harg4.read_unread,
    View.ld_unit_zero (S := S400x10000) zeroOff, View.ld_unit_zero (S := S10000x16) zeroOff, View.ld_unit_zero (S := S1x16) zeroOff]

/-- and in the output block the transpose of the whole accumulator as that store left it. -/
theorem runLast_pieces_out (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x10000 .f32) (harg5 : arg5.IsWhole) (arg6 : Memref sig .tc .vmem S10000x16 .f32) (harg6 : arg6.IsWhole) (arg7 : Memref sig .tc .vmem S10000x16 .f32) (harg7 : arg7.IsWhole) (hc0 : ¬isFirst i) (hc1 : isLast i)
    (x1 : Vec F S400x10000 .f32) (x3 : Vec F S1x16 .f32) (x4 : Vec F S16x10000 .f32) (xs0 : Vec F S10000x16 .f32) (xs1 : Vec F S10000x16 .f32) :
    (runLast c i arg1 harg1 arg2 harg2 arg3 harg3 arg4 harg4 arg5 harg5 arg6 harg6 arg7 harg7 hc0 hc1 x1 x3 x4 xs0 xs1).1.2
      = [⟨Rect.unit (s := S16x10000) ![0, 0] S16x10000.size inb_S16x10000_S16x10000_0_0,
          k0_pay3 (arg7.view.read (Elt F) (arg7.view.writes (Elt F) (harg7.unread xs1)
            [⟨Rect.unit (s := S10000x16) (k0_off1 i) S400x16.size (k0_off1_inb i), k0_pay2 x1 xs0 x3⟩]))⟩] := by
  unfold runLast
  dsimp only
  sl_unfold_words
  simp only [View.readAt_eq_ld, harg2.read_unread, harg6.read_unread, harg4.read_unread,
    View.ld_unit_zero (S := S400x10000) zeroOff, View.ld_unit_zero (S := S10000x16) zeroOff, View.ld_unit_zero (S := S1x16) zeroOff]

end Cert.KernelIdeal.Hand

end
-- ==== Proof.KIAcc.lean ====
import proofs.«180025_g1580547969797_cont_week2b_876_14_alg».proof.Proof.KISetup
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The feature product and the accumulator, row block by row block -/

variable (m : (ℓ : Loc nD τ sig) → Buf (Elt F) ℓ) (ρ : Dev nD → PrngReg)

/-! ## What the two scratch buffers hold, as functions of the argument blocks

The feature product is computed once, from the blocks of the first point (windows 0 and 2 never move); the
accumulator's rows `[400 t, 400 t + 400)` are point `t`'s block of adjacency rows times that product, plus the bias row. -/

/-- The grid's first point. -/
def t0 : Fin cfg0.N := ⟨0, by rw [show cfg0.N = 25 from N_0]; exact Nat.zero_lt_succ _⟩

/-- The feature product `x · W` as the first point computes it. -/
def support (c : Dev nD) : Vec F S10000x16 .f32 := k0_pay1 (iblk m c 0 t0) (iblk m c 2 t0)

theorem support_eq (c : Dev nD) (t : Fin cfg0.N) (hz : t.val = 0) : support m c = k0_pay1 (iblk m c 0 t) (iblk m c 2 t) := by
  have h : t = t0 := Fin.ext hz
  subst h; rfl

/-- The 400 rows point `t` computes. -/
def slab (c : Dev nD) (t : Fin cfg0.N) : Vec F S400x16 .f32 := k0_pay2 (iblk m c 1 t) (support m c) (iblk m c 3 t)

theorem slab_congr (c : Dev nD) (t t' : Fin cfg0.N) (x x' : S400x16.Idx) (ht : t.val = t'.val) (hx : ∀ a, (x a).val = (x' a).val) :
    slab m c t x = slab m c t' x' := by
  obtain rfl := Fin.ext ht
  exact congrArg _ (funext fun a => Fin.ext (hx a))

/-- The whole accumulator once every point has run: row `r` is row `r % 400` of point `r / 400`'s rows. -/
def accFull (c : Dev nD) : Vec F S10000x16 .f32 := fun y =>
  slab m c ⟨(y 0).val / 400, by
      rw [show cfg0.N = 25 from N_0]
      exact Nat.div_lt_of_lt_mul (ValueIdx.idx2_lt0 (n0 := 10000) (n1 := 16) y)⟩
    (ValueIdx.ix2 (⟨(y 0).val % 400, Nat.mod_lt _ (by decide)⟩ : Fin 400) (⟨(y 1).val, ValueIdx.idx2_lt1 (n0 := 10000) (n1 := 16) y⟩ : Fin 16))

/-- Contents of the accumulator that are right on the rows the first `n` points have stored. -/
def AccUpTo (c : Dev nD) (n : ℕ) (d : Vec F S10000x16 .f32) : Prop :=
  ∀ y : S10000x16.Idx, (y 0).val < 400 * n → d y = accFull m c y

/-- Point `t`'s store of its rows over contents right below row `400 t` leaves contents right below row `400 (t + 1)`. -/
theorem AccUpTo.step (c : Dev nD) (t : Fin cfg0.N) (d : Vec F S10000x16 .f32) (hd : AccUpTo m c t.val d)
    (arg7 : Memref sig .tc .vmem S10000x16 .f32) (harg7 : arg7.IsWhole) :
    AccUpTo m c (t.val + 1) (arg7.view.read (Elt F) (arg7.view.writes (Elt F) (harg7.unread d)
      [⟨Rect.unit (s := S10000x16) (k0_off1 (grid0.coords t)) S400x16.size (k0_off1_inb (grid0.coords t)), slab m c t⟩])) := by
  intro y hy
  rw [View.read_writes_cons_rows (o := 400 * t.val) (W := 400) arg7.view (harg7.unread d) (k0_off1_inb (grid0.coords t)) (slab m c t) [] y (rowOffset t) rfl rfl]
  split
  · rename_i h
    unfold accFull
    refine slab_congr m c _ _ _ _ ?_ ?_
    · show t.val = (y 0).val / 400
      omega
    · intro a
      match a with
      | ⟨0, _⟩ => show (y 0).val - 400 * t.val = (y 0).val % 400; omega
      | ⟨1, _⟩ => show (y 1).val - 0 = (y 1).val; omega
  · rename_i h
    rw [View.writes_nil, harg7.read_unread]
    exact hd y (by omega)

/-- Contents right on all 10000 rows are the whole accumulator. -/
theorem AccUpTo.full (c : Dev nD) (d : Vec F S10000x16 .f32) (hd : AccUpTo m c 25 d) : d = accFull m c :=
  funext fun y => hd y (by have := ValueIdx.idx2_lt0 (n0 := 10000) (n1 := 16) y; omega)

/-- Any contents are right on no rows. -/
theorem AccUpTo.zero (c : Dev nD) (d : Vec F S10000x16 .f32) : AccUpTo m c 0 d := fun y hy => absurd hy (by omega)

/-- What the last point stores into the output block: the whole accumulator transposed. -/
def outFinal (c : Dev nD) : Vec F S16x10000 .f32 := k0_pay3 (accFull m c)

end Cert.KernelIdeal.Hand

end
-- ==== Proof.KIData.lean ====
import proofs.«180025_g1580547969797_cont_week2b_876_14_alg».proof.Proof.KIPieces
import proofs.«180025_g1580547969797_cont_week2b_876_14_alg».proof.Proof.KIAcc
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The invariant between points, the body at every point, and the run -/

variable (m : (ℓ : Loc nD τ sig) → Buf (Elt F) ℓ) (ρ : Dev nD → PrngReg)

/-! ## The invariant between points

Before the first point both scratch buffers hold anything. After point `n - 1` the first holds the feature
product and the second is right on its first `400 n` rows. -/

def Phi (c : Dev nD) : (n : ℕ) → n ≤ cfg0.N → sProp 𝕄
  | 0, _ => Pipeline.ΦA spec0 c
  | n + 1, _ => iprop(iprop(owns (c : Thread nD τ) msup fullShare (support m c) ∗ (∃ d, ⌜AccUpTo m c (n + 1) d⌝ ∗ owns (c : Thread nD τ) macc fullShare d)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) msup fullShare (support m c) ∗ (∃ d, ⌜AccUpTo m c n d⌝ ∗ owns (c : Thread nD τ) macc fullShare d)) ∗ (∃ r, prngReg c r)) := by
  cases n with
  | zero => exact absurd rfl hz
  | succ n => rfl

/-! ## The pipeline's proof data -/

/-- The arrays as the region finds them; after the body each input's buffer at its block, the output's at the
    transposed accumulator (read only at the last point, the one point that is not idle for it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outFinal m c
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outFinal m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem leaves0 (c : Dev nD) (t : Fin cfg0.N) : (dats m 0 c).leavesExact 0 t = owns (c : Thread nD τ) (mx t) fullShare (iblk m c 0 t) := by
  unfold Dat.leavesExact; rw [live0 t, after0]
theorem leaves1 (c : Dev nD) (t : Fin cfg0.N) : (dats m 0 c).leavesExact 1 t = owns (c : Thread nD τ) (madj t) fullShare (iblk m c 1 t) := by
  unfold Dat.leavesExact; rw [live1 t, after1]
theorem leaves2 (c : Dev nD) (t : Fin cfg0.N) : (dats m 0 c).leavesExact 2 t = owns (c : Thread nD τ) (mwt t) fullShare (iblk m c 2 t) := by
  unfold Dat.leavesExact; rw [live2 t, after2]
theorem leaves3 (c : Dev nD) (t : Fin cfg0.N) : (dats m 0 c).leavesExact 3 t = owns (c : Thread nD τ) (mb t) fullShare (iblk m c 3 t) := by
  unfold Dat.leavesExact; rw [live3 t, after3]
/-- Away from the last point the output's buffer is handed back as found; -/
theorem leaves4_idle (c : Dev nD) (t : Fin cfg0.N) (h : t.val ≠ 24) :
    (dats m 0 c).leavesExact 4 t = iprop(∃ d, owns (c : Thread nD τ) (mout t) fullShare ((dats m 0 c).before 4 t d)) :=
  Dat.leavesExact_idle _ 4 t ((idle4_iff t).mpr h) (by
    cases hf : (cfg0.win 4).flush t
    · rfl
    · exact absurd ((flush4_iff t).mp hf) h)
/-- at the last point it holds the transposed accumulator. -/
theorem leaves4_last (c : Dev nD) (t : Fin cfg0.N) (h : t.val = 24) :
    (dats m 0 c).leavesExact 4 t = owns (c : Thread nD τ) (mout t) fullShare (outFinal m c) := by
  have hi : cfg0.idle 4 (grid0.coords t) = false := by
    cases hi : cfg0.idle 4 (grid0.coords t)
    · rfl
    · exact absurd h ((idle4_iff t).mp hi)
  unfold Dat.leavesExact; rw [hi, after4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (madj t) fullShare ((dats m 0 c).before 1 t d))
    ∗ (∃ d, owns (c : Thread nD τ) (mwt t) fullShare ((dats m 0 c).before 2 t d))
    ∗ (∃ d, owns (c : Thread nD τ) (mb t) fullShare ((dats m 0 c).before 3 t d))
    ∗ (∃ d, owns (c : Thread nD τ) (mout t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the first, a middle one or the last, each by its run; the invariant hands over the two
    scratch buffers and takes them back with the point's rows added to the rows the accumulator is right on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_pos m c _ _ (Nat.succ_ne_zero _)]
  rw [leaves0, leaves1, leaves2, leaves3]
  have hN : t.val < 25 := lt_of_lt_of_eq t.isLt (show cfg0.N = 25 from N_0)
  by_cases hz : t.val = 0
  · have hc0 : isFirst (grid0.coords t) := (isFirst_iff t).mpr hz
    have hc1 : ¬isLast (grid0.coords t) := fun h => by have := (isLast_iff t).mp h; omega
    rw [leaves4_idle m c t (by omega)]
    rw [Phi_castSucc m c t, Phi_zero m c _ _ hz, PhiA_eq]
    iintro ⟨⟨⟨⟨%ds0, HS0⟩, ⟨%ds1, HS1⟩⟩, Hg⟩, Ho, ⟨%d0, H0⟩, ⟨%d1, H1⟩, ⟨%d2, H2⟩, ⟨%d3, H3⟩, H4⟩
    iapply ((runFirst c (grid0.coords t) (mx t) (hmx t) (madj t) (hmadj t) (mwt t) (hmwt t) (mb t) (hmb t) (mout t) (hmout t) msup (Memref.isWhole_whole _) macc (Memref.isWhole_whole _) hc0 hc1 (iblk m c 0 t) (iblk m c 1 t) (iblk m c 2 t) (iblk m c 3 t) ds0 ds1).2 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]
        · unfold owns; iexists _; isplitr
          swap; · iexact HS0
          ipureintro
          rw [runFirst_pieces_sup, support_eq m c t hz]
          exact read_wholePiece _ _ zeroOff _ _
        · iexists _; isplitr
          swap
          · unfold owns; iexists _; isplitr
            swap; · iexact HS1
            ipureintro; rfl
          ipureintro
          rw [runFirst_pieces_acc, ← support_eq m c t hz]
          exact AccUpTo.step m c t ds1 (hz ▸ AccUpTo.zero m c ds1) macc _
      iexact Hg
    isplitl [Ho]; · iexact Ho
    isplitl [H0]; · iexact H0
    isplitl [H1]; · iexact H1
    isplitl [H2]; · iexact H2
    isplitl [H3]; · iexact H3
    iexact H4
  · have hc0 : ¬isFirst (grid0.coords t) := fun h => hz ((isFirst_iff t).mp h)
    rw [Phi_castSucc m c t, Phi_pos m c _ _ hz]
    by_cases hl : t.val = 24
    · have hc1 : isLast (grid0.coords t) := (isLast_iff t).mpr hl
      rw [leaves4_last m c t hl]
      iintro ⟨⟨⟨HS0, ⟨%ds1, %hds1, HS1⟩⟩, Hg⟩, Ho, ⟨%d0, H0⟩, ⟨%d1, H1⟩, ⟨%d2, H2⟩, ⟨%d3, H3⟩, ⟨%d4, H4⟩⟩
      iapply ((runLast c (grid0.coords t) (mx t) (hmx t) (madj t) (hmadj t) (mwt t) (hmwt t) (mb t) (hmb t) (mout t) (hmout t) msup (Memref.isWhole_whole _) macc (Memref.isWhole_whole _) hc0 hc1 (iblk m c 1 t) (iblk m c 3 t) ((dats m 0 c).before 4 t d4) (support m c) ds1).2 Set.univ _)
      isplitl [H1]; · iexact H1
      isplitl [H3]; · iexact H3
      isplitl [H4]; · iexact H4
      isplitl [HS0]; · iexact HS0
      isplitl [HS1]; · iexact HS1
      iintro ⟨H1, H3, H4, HS0, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          rw [runLast_pieces_acc]
          exact AccUpTo.step m c t ds1 hds1 macc _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      rw [runLast_pieces_out, read_wholePiece _ _ zeroOff]
      have hfull := AccUpTo.step m c t ds1 hds1 macc (Memref.isWhole_whole _)
      rw [hl] at hfull
      exact congrArg k0_pay3 (AccUpTo.full m c _ hfull)
    · have hc1 : ¬isLast (grid0.coords t) := fun h => hl ((isLast_iff t).mp h)
      rw [leaves4_idle m c t hl]
      iintro ⟨⟨⟨HS0, ⟨%ds1, %hds1, HS1⟩⟩, Hg⟩, Ho, ⟨%d0, H0⟩, ⟨%d1, H1⟩, ⟨%d2, H2⟩, ⟨%d3, H3⟩, H4⟩
      iapply ((runMid c (grid0.coords t) (mx t) (hmx t) (madj t) (hmadj t) (mwt t) (hmwt t) (mb t) (hmb t) (mout t) (hmout t) msup (Memref.isWhole_whole _) macc (Memref.isWhole_whole _) hc0 hc1 (iblk m c 1 t) (iblk m c 3 t) (support m c) ds1).2 Set.univ _)
      isplitl [H1]; · iexact H1
      isplitl [H3]; · iexact H3
      isplitl [HS0]; · iexact HS0
      isplitl [HS1]; · iexact HS1
      iintro ⟨H1, H3, HS0, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          rw [runMid_pieces]
          exact AccUpTo.step m c t ds1 hds1 macc _
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 25 := N_0; omega), PhiA_eq]
  iintro ⟨⟨HS0, ⟨%d, %hd, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; every array of the pipeline ends at what the proof data
    computes (the inputs unchanged, the output at the last point's write-back) and every other buffer at what the
    host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KIValue.lean ====
import proofs.«180025_g1580547969797_cont_week2b_876_14_alg».proof.Proof.KIData
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The result array as a function of the argument arrays -/

variable (m : (ℓ : Loc nD τ sig) → Buf (Elt F) ℓ) (ρ : Dev nD → PrngReg)

/-! ## The windows' blocks as parts of the arrays

Windows 0, 2, 3 and 4 sit still over their whole arrays; window 1 moves down the adjacency matrix 400 rows a point. -/

theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The features' block is the whole feature array. -/
theorem iblk_x (c : Dev nD) (t : Fin cfg0.N) : (iblk m c 0 t : S10000x128.Idx → Elt F .f32) = V m c main_arg0 := by
  funext j
  show V m c main_arg0 (((cfg0.win 0).blk t).view.emb j) = V m c main_arg0 j
  refine congrArg _ (funext fun a => Fin.ext ?_)
  obtain ⟨e0, e1, -⟩ := index_facts t
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The transposed weights' block is the whole transposed-weights array. -/
theorem iblk_wt (c : Dev nD) (t : Fin cfg0.N) : (iblk m c 2 t : S16x128.Idx → Elt F .f32) = V m c main_v0 := by
  funext j
  show V m c main_v0 (((cfg0.win 2).blk t).view.emb j) = V m c main_v0 j
  refine congrArg _ (funext fun a => Fin.ext ?_)
  obtain ⟨-, -, -, -, e0, e1, -⟩ := index_facts t
  match a with
  | ⟨0, _⟩ => show win0_2.index t (0 : Fin 2) * 16 + 1 * (j 0).val = (j 0).val; omega
  | ⟨1, _⟩ => show win0_2.index t (1 : Fin 2) * 128 + 1 * (j 1).val = (j 1).val; omega

/-- The bias row's block is the whole bias row. -/
theorem iblk_b (c : Dev nD) (t : Fin cfg0.N) : (iblk m c 3 t : S1x16.Idx → Elt F .f32) = V m c main_v1 := by
  funext j
  show V m c main_v1 (((cfg0.win 3).blk t).view.emb j) = V m c main_v1 j
  refine congrArg _ (funext fun a => Fin.ext ?_)
  obtain ⟨-, -, -, -, -, -, e0, e1, -⟩ := index_facts t
  match a with
  | ⟨0, _⟩ => show win0_3.index t (0 : Fin 2) * 1 + 1 * (j 0).val = (j 0).val; omega
  | ⟨1, _⟩ => show win0_3.index t (1 : Fin 2) * 16 + 1 * (j 1).val = (j 1).val; omega

/-- Row `p` of point `t`'s adjacency block is row `400 t + p` of the adjacency matrix. -/
theorem iblk_adj (c : Dev nD) (t : Fin cfg0.N) (p : Fin 400) (k : Fin 10000) (r : Fin 10000) (hr : r.val = 400 * t.val + p.val) :
    (iblk m c 1 t : S400x10000.Idx → Elt F .f32) (ValueIdx.ix2 p k) = V m c main_arg1 (ValueIdx.ix2 r k) := by
  show V m c main_arg1 (((cfg0.win 1).blk t).view.emb (ValueIdx.ix2 p k)) = V m c main_arg1 (ValueIdx.ix2 r k)
  refine congrArg _ (funext fun a => Fin.ext ?_)
  obtain ⟨-, -, e0, e1, -⟩ := index_facts t
  match a with
  | ⟨0, _⟩ => show win0_1.index t (0 : Fin 2) * 400 + 1 * p.val = r.val; omega
  | ⟨1, _⟩ => show win0_1.index t (1 : Fin 2) * 10000 + 1 * k.val = k.val; omega

/-! ## The arrays the host lines before the region wrote -/

/-- The region finds the weights transposed, -/
theorem V_wt (c : Dev nD) : (V m c main_v0 : S16x128.Idx → Elt F .f32)
    = transpose S16x128 [1, 0] (m ((c : Thread nD τ).loc main_arg2)) transposes_S128x16_S16x128_1_0 := by
  show StableHlo.after hostOps0 (fun b => m (c, b)) (Proc.devRef .tc main_v0) = _
  after_results

/-- and the bias as one row. -/
theorem V_b (c : Dev nD) : (V m c main_v1 : S1x16.Idx → Elt F .f32)
    = shapeCast S1x16 (m ((c : Thread nD τ).loc main_arg3)) shapeCasts_S16_S1x16 := by
  show StableHlo.after hostOps0 (fun b => m (c, b)) (Proc.devRef .tc main_v1) = _
  after_results
  rfl

/-! ## The output array after the run, and the result the host line after the region computes from it -/

/-- The one write-back, at the last point, writes the whole output array. -/
theorem final_out (c : Dev nD) : (dats m 0 c).arrAt 4 cfg0.N = outFinal m c := by
  refine (dats m 0 c).arrAt_eq_of_cover 4 (outFinal m c) (fun t _ => ?_) (fun i => ?_)
  · show (cfg0.win 4).cut (grid0.coords t) ((dats m 0 c).after 4 t) = _
    rw [after4]
    funext j
    show outFinal m c j = outFinal m c (((cfg0.win 4).blk t).view.emb j)
    refine congrArg _ (funext fun a => Fin.ext ?_)
    obtain ⟨-, -, -, -, -, -, -, -, e0, e1⟩ := index_facts t
    match a with
    | ⟨0, _⟩ => show (j 0).val = win0_4.index t (0 : Fin 2) * 16 + 1 * (j 0).val; omega
    | ⟨1, _⟩ => show (j 1).val = win0_4.index t (1 : Fin 2) * 10000 + 1 * (j 1).val; omega
  · have h24 : 24 < cfg0.N := by rw [show cfg0.N = 25 from N_0]; exact Nat.lt_succ_self _
    refine ⟨⟨24, h24⟩, (flush4_iff ⟨24, h24⟩).mpr rfl, ?_⟩
    show i ∈ ((View.whole main_v2).slice (win0_4.rect ⟨24, h24⟩)).set
    rw [View.set_slice_whole, Rect.mem_set_unit]
    obtain ⟨-, -, -, -, -, -, -, -, e0, e1⟩ := index_facts ⟨24, h24⟩
    intro a
    match a with
    | ⟨0, _⟩ =>
      show win0_4.index ⟨24, h24⟩ (0 : Fin 2) * 16 ≤ (i 0).val ∧ (i 0).val < win0_4.index ⟨24, h24⟩ (0 : Fin 2) * 16 + 16
      have : (i 0).val < 16 := (i 0).isLt
      omega
    | ⟨1, _⟩ =>
      show win0_4.index ⟨24, h24⟩ (1 : Fin 2) * 10000 ≤ (i 1).val ∧ (i 1).val < win0_4.index ⟨24, h24⟩ (1 : Fin 2) * 10000 + 10000
      have : (i 1).val < 10000 := (i 1).isLt
      omega

/-- The host line after the region transposes the output array back. -/
theorem tail_value (c : Dev nD) :
    Pipeline.afterTail₀ cfgs (dats m) 0 (V0 m) [hostOps1] c main_v3
      = transpose S10000x16 [1, 0] (outFinal m c) transposes_S16x10000_S10000x16_1_0 := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2) = outFinal m c from
    (Pipeline.withArrays_arr spec0 launch0.win.arr_inj c _ _ 4).trans (final_out m c)]

/-- The run, read: the result at the transposed output, the arguments unchanged. -/
theorem run_value : θ_run defs (onTc (τ := τ) (main (F := F))) ⟨m, fun _ => 0, ρ⟩ (fun r => ∀ c : Dev nD,
      r.2.mem ((c.tc : Thread nD τ).loc main_v3) = transpose S10000x16 [1, 0] (outFinal m c) transposes_S16x10000_S10000x16_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v3 (Pipeline.mem_restRefs_of main_v3 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Hand

end
-- ==== Proof.Spec.lean ====
/- The specification both programs are compared with: one graph-convolution layer at the ideal instance (floats
   are extended reals, operations exact). At row r and feature f,
       G(r, f) = (∑ k, adj(r, k) · (∑ j, x(k, j) · w(j, f))) + b(f),
   the inner sum being the support matrix x·w at (k, f). The sums are kept in this arrangement — the same one both
   programs compute — so that no distributivity and no finiteness of the extended reals is needed. Stated over the
   literal shapes, so that it does not depend on either program's names for them. -/
import Idealize.ShloMosaic.PureOps.Ideal
import Idealize.ShloMosaic.Lib.ValueIdx

noncomputable section

namespace Cert.GcnSpec

open Idealize.ShloMosaic Idealize.ShloMosaic.ValueIdx
open scoped BigOperators

/-- The layer's output as a function of the features `x`, the adjacency matrix `adj`, the weights `w` and the
    bias `b`. -/
def G (x : Vec Ideal ⟨2, ![10000, 128]⟩ .f32) (adj : Vec Ideal ⟨2, ![10000, 10000]⟩ .f32)
    (w : Vec Ideal ⟨2, ![128, 16]⟩ .f32) (b : Vec Ideal ⟨1, ![16]⟩ .f32) : Vec Ideal ⟨2, ![10000, 16]⟩ .f32 :=
  fun i => (∑ k : Fin 10000, adj (ix2 (i 0) k) * ∑ j : Fin 128, x (ix2 k j) * w (ix2 j (i 1))) + b (ix1 (i 1))

/-- `G` at the index with coordinates (r, f). -/
theorem G_apply (x : Vec Ideal ⟨2, ![10000, 128]⟩ .f32) (adj : Vec Ideal ⟨2, ![10000, 10000]⟩ .f32)
    (w : Vec Ideal ⟨2, ![128, 16]⟩ .f32) (b : Vec Ideal ⟨1, ![16]⟩ .f32) (r : Fin 10000) (f : Fin 16) :
    G x adj w b (ix2 r f)
      = (∑ k : Fin 10000, adj (ix2 r k) * ∑ j : Fin 128, x (ix2 k j) * w (ix2 j f)) + b (ix1 f) := rfl

end Cert.GcnSpec

end
-- ==== Proof.Payloads.lean ====
/- The kernel's three pure payloads and the three host layout operations, each read at one index, at the
   ideal instance (floats are extended reals, operations exact). A matrix product into a zero accumulator is the
   plain sum over the contracted axis; a transpose swaps the two coordinates; the reshape of a vector to one row
   reads the vector. -/
import proofs.«180025_g1580547969797_cont_week2b_876_14_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx Idealize.SL.Sem
open scoped BigOperators

/-! ## The first product: x (rows) against the transposed weights (rows), contracted on axis 1 of both -/

private abbrev D1 := dot_S10000x128_S16x128_S10000x16_1_1_0_0_n_n
private abbrev D2 := dot_S400x10000_S10000x16_S400x16_1_0_0_1_n_n

theorem d1_lhs_0 (i : S10000x16.Idx) (q : D1.contr.Idx) : (D1.lhsIdx i q 0).val = (i 0).val := by
  unfold DotDims.lhsIdx
  rw [dif_neg (show ¬(0 : Fin S10000x128.rank) ∈ D1.lhsBatch by decide), dif_pos (show (0 : Fin S10000x128.rank) ∈ D1.lhsNonContracting by decide)]
  rfl
theorem d1_lhs_1 (i : S10000x16.Idx) (q : D1.contr.Idx) : (D1.lhsIdx i q 1).val = (q ⟨0, by decide⟩).val :=
  D1.lhsIdx_val_of_single rfl i q
theorem d1_rhs_0 (i : S10000x16.Idx) (q : D1.contr.Idx) : (D1.rhsIdx i q 0).val = (i 1).val := by
  unfold DotDims.rhsIdx
  rw [dif_neg (show ¬(0 : Fin S16x128.rank) ∈ D1.rhsBatch by decide), dif_pos (show (0 : Fin S16x128.rank) ∈ D1.rhsNonContracting by decide)]
  rfl
theorem d1_rhs_1 (i : S10000x16.Idx) (q : D1.contr.Idx) : (D1.rhsIdx i q 1).val = (q ⟨0, by decide⟩).val :=
  D1.rhsIdx_val_of_single rfl i q

/-- The support matrix at (k, f): the sum over j of x(k, j) · wt(f, j). -/
theorem pay1_apply (x : Vec Ideal S10000x128 .f32) (wt : Vec Ideal S16x128 .f32) (k : Fin 10000) (f : Fin 16) :
    k0_pay1 (F := Ideal) x wt (ix2 k f) = ∑ j : Fin 128, x (ix2 k j) * wt (ix2 f j) := by
  unfold k0_pay1
  simp only [shapeCast_self, matmul]
  rw [Ideal.matmul_constant_zero_apply, ← Equiv.sum_comp (contrEquiv1 D1 128 rfl rfl).symm]
  refine Finset.sum_congr rfl fun j _ => ?_
  have hj := contrEquiv1_symm_val D1 128 rfl rfl j
  have el : D1.lhsIdx (ix2 k f) ((contrEquiv1 D1 128 rfl rfl).symm j) = ix2 k j := funext fun a => Fin.ext (by
    match a with
    | ⟨0, _⟩ => exact d1_lhs_0 _ _
    | ⟨1, _⟩ => exact (d1_lhs_1 _ _).trans hj)
  have er : D1.rhsIdx (ix2 k f) ((contrEquiv1 D1 128 rfl rfl).symm j) = ix2 f j := funext fun a => Fin.ext (by
    match a with
    | ⟨0, _⟩ => exact d1_rhs_0 _ _
    | ⟨1, _⟩ => exact (d1_rhs_1 _ _).trans hj)
  rw [el, er]

/-! ## The second product: a block of adjacency rows against the support matrix, plus the bias row -/

theorem d2_lhs_0 (i : S400x16.Idx) (q : D2.contr.Idx) : (D2.lhsIdx i q 0).val = (i 0).val := by
  unfold DotDims.lhsIdx
  rw [dif_neg (show ¬(0 : Fin S400x10000.rank) ∈ D2.lhsBatch by decide), dif_pos (show (0 : Fin S400x10000.rank) ∈ D2.lhsNonContracting by decide)]
  rfl
theorem d2_lhs_1 (i : S400x16.Idx) (q : D2.contr.Idx) : (D2.lhsIdx i q 1).val = (q ⟨0, by decide⟩).val :=
  D2.lhsIdx_val_of_single rfl i q
theorem d2_rhs_0 (i : S400x16.Idx) (q : D2.contr.Idx) : (D2.rhsIdx i q 0).val = (q ⟨0, by decide⟩).val :=
  D2.rhsIdx_val_of_single rfl i q
theorem d2_rhs_1 (i : S400x16.Idx) (q : D2.contr.Idx) : (D2.rhsIdx i q 1).val = (i 1).val := by
  unfold DotDims.rhsIdx
  rw [dif_neg (show ¬(1 : Fin S10000x16.rank) ∈ D2.rhsBatch by decide), dif_pos (show (1 : Fin S10000x16.rank) ∈ D2.rhsNonContracting by decide)]
  rfl

/-- The bias row broadcast down the block reads the row at the column. -/
theorem bias_bcast_apply (b : Vec Ideal S1x16 .f32) (p : Fin 400) (f : Fin 16) :
    broadcastTo S400x16 b broadcasts_S1x16_S400x16 (ix2 p f) = b (ix2 (0 : Fin 1) f) :=
  broadcastTo_apply b broadcasts_S1x16_S400x16 (ix2 p f) (ix2 (0 : Fin 1) f) (fun a => match a with
    | ⟨0, _⟩ => by show (0 : Nat) = if (1 : Nat) = 1 then 0 else _; rw [if_pos rfl]
    | ⟨1, _⟩ => by show f.val = if (16 : Nat) = 1 then 0 else _; rw [if_neg (by decide)]; rfl)

/-- One block row of the output at (p, f): the sum over k of a(p, k) · s(k, f), plus the bias at f. -/
theorem pay2_apply (a : Vec Ideal S400x10000 .f32) (s : Vec Ideal S10000x16 .f32) (b : Vec Ideal S1x16 .f32)
    (p : Fin 400) (f : Fin 16) :
    k0_pay2 (F := Ideal) a s b (ix2 p f) = (∑ k : Fin 10000, a (ix2 p k) * s (ix2 k f)) + b (ix2 (0 : Fin 1) f) := by
  unfold k0_pay2
  simp only [shapeCast_self, matmul]
  rw [addf_apply, bias_bcast_apply, Ideal.matmul_constant_zero_apply,
    ← Equiv.sum_comp (contrEquiv1 D2 10000 rfl rfl).symm]
  congr 1
  refine Finset.sum_congr rfl fun k _ => ?_
  have hk := contrEquiv1_symm_val D2 10000 rfl rfl k
  have el : D2.lhsIdx (ix2 p f) ((contrEquiv1 D2 10000 rfl rfl).symm k) = ix2 p k := funext fun c => Fin.ext (by
    match c with
    | ⟨0, _⟩ => exact d2_lhs_0 _ _
    | ⟨1, _⟩ => exact (d2_lhs_1 _ _).trans hk)
  have er : D2.rhsIdx (ix2 p f) ((contrEquiv1 D2 10000 rfl rfl).symm k) = ix2 k f := funext fun c => Fin.ext (by
    match c with
    | ⟨0, _⟩ => exact (d2_rhs_0 _ _).trans hk
    | ⟨1, _⟩ => exact d2_rhs_1 _ _)
  rw [el, er]

/-! ## The transposes and the reshape -/

/-- The accumulator written transposed reads, at (f, r), the accumulator at (r, f). -/
theorem pay3_apply (v : Vec Ideal S10000x16 .f32) (f : Fin 16) (r : Fin 10000) :
    k0_pay3 (F := Ideal) v (ix2 f r) = v (ix2 r f) := by
  unfold k0_pay3
  exact transpose_ix2_apply v transposes_S10000x16_p1_0_S16x10000 f r

/-- The host's transpose of the weights reads, at (f, j), the weights at (j, f). -/
theorem wt_apply (w : Vec Ideal S128x16 .f32) (h : S128x16.Transposes [1, 0] S16x128) (f : Fin 16) (j : Fin 128) :
    transpose S16x128 [1, 0] w h (ix2 f j) = w (ix2 j f) :=
  transpose_ix2_apply w h f j

/-- The host's transpose of the kernel's output reads, at (r, f), the output at (f, r). -/
theorem out_apply (o : Vec Ideal S16x10000 .f32) (h : S16x10000.Transposes [1, 0] S10000x16) (r : Fin 10000) (f : Fin 16) :
    transpose S10000x16 [1, 0] o h (ix2 r f) = o (ix2 f r) :=
  transpose_ix2_apply o h r f

/-- The bias reshaped to one row reads, at (0, f), the bias at f. -/
theorem bias_row_apply (b : Vec Ideal S16 .f32) (h : S16.ShapeCasts S1x16) (f : Fin 16) :
    shapeCast S1x16 b h (ix2 (0 : Fin 1) f) = b (ix1 f) :=
  shapeCast_apply b h (ix2 (0 : Fin 1) f) (ix1 f) (by
    rw [Shape.rowMajor_val_one, Shape.rowMajor_val_two]; simp)

end Cert.KernelIdeal.Payloads

end
-- ==== Proof.KernelIsG.lean ====
/- The kernel's function of its inputs is the specification. The kernel keeps the support matrix
   s(k, f) = ∑ j, x(k, j) · wt(f, j), with wt the weights transposed on the host, accumulates per output row
   acc(r, f) = (∑ k, adj(r, k) · s(k, f)) + brow(0, f), with brow the bias reshaped to one row on the host, writes acc
   transposed, and the host transposes the result back. Reading each layout operation at an index undoes it, and
   what is left is the specification's arrangement of the two sums, term for term. -/
import proofs.«180025_g1580547969797_cont_week2b_876_14_alg».proof.Proof.Spec
import proofs.«180025_g1580547969797_cont_week2b_876_14_alg».proof.Proof.Payloads

noncomputable section

namespace Cert.KernelIdeal.KernelIsG

open Cert.KernelIdeal Cert.KernelIdeal.Gen Cert.KernelIdeal.Payloads Cert.GcnSpec
open Idealize.ShloMosaic Idealize.ShloMosaic.ValueIdx Idealize.SL.Sem
open scoped BigOperators

/-- The support matrix the kernel computes from the host-transposed weights is x·w. -/
theorem support_apply (x : Vec Ideal S10000x128 .f32) (w : Vec Ideal S128x16 .f32)
    (hT : S128x16.Transposes [1, 0] S16x128) (k : Fin 10000) (f : Fin 16) :
    k0_pay1 (F := Ideal) x (transpose S16x128 [1, 0] w hT) (ix2 k f) = ∑ j : Fin 128, x (ix2 k j) * w (ix2 j f) := by
  rw [pay1_apply]
  refine Finset.sum_congr rfl fun j _ => ?_
  rw [wt_apply]

/-- If the accumulator holds, at every (r, f), the adjacency row r against column f of the kernel's support matrix
    plus the reshaped bias at f, then the kernel's output — the accumulator transposed in the kernel and transposed
    back on the host — is the specification. `hT`, `hR`, `hO` are the three host operations' shape facts, whichever
    proofs of them the program cites. -/
theorem kernel_fn_eq (x : Vec Ideal S10000x128 .f32) (adj : Vec Ideal S10000x10000 .f32)
    (w : Vec Ideal S128x16 .f32) (b : Vec Ideal S16 .f32)
    (hT : S128x16.Transposes [1, 0] S16x128) (hR : S16.ShapeCasts S1x16) (hO : S16x10000.Transposes [1, 0] S10000x16)
    (acc : Vec Ideal S10000x16 .f32)
    (hacc : ∀ (r : Fin 10000) (f : Fin 16), acc (ix2 r f)
      = (∑ k : Fin 10000, adj (ix2 r k) * k0_pay1 (F := Ideal) x (transpose S16x128 [1, 0] w hT) (ix2 k f))
        + shapeCast S1x16 b hR (ix2 (0 : Fin 1) f)) :
    transpose S10000x16 [1, 0] (k0_pay3 (F := Ideal) acc) hO = G x adj w b := by
  funext i
  obtain ⟨r, f, rfl⟩ : ∃ (r : Fin 10000) (f : Fin 16), i = ix2 r f := ⟨i 0, i 1, eq_ix2 i⟩
  rw [out_apply, pay3_apply, hacc, bias_row_apply, G_apply]
  congr 1
  refine Finset.sum_congr rfl fun k _ => ?_
  rw [support_apply]

end Cert.KernelIdeal.KernelIsG

end
-- ==== Proof.KIAlgebra.lean ====
import proofs.«180025_g1580547969797_cont_week2b_876_14_alg».proof.Proof.KIValue
import proofs.«180025_g1580547969797_cont_week2b_876_14_alg».proof.Proof.KernelIsG
import proofs.«180025_g1580547969797_cont_week2b_876_14_alg».proof.Proof.Payloads
import proofs.«180025_g1580547969797_cont_week2b_876_14_alg».proof.Proof.Spec
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The result over the extended reals is the layer `adj · (x · W) + bias` -/

variable (m : (ℓ : Loc nD τ sig) → Buf (Elt Ideal) ℓ)

/-- The four argument arrays as launched, as index functions into the extended reals. -/
abbrev argX (c : Dev nD) : Vec Ideal S10000x128 .f32 := m ((c : Thread nD τ).loc main_arg0)
abbrev argAdj (c : Dev nD) : Vec Ideal S10000x10000 .f32 := m ((c : Thread nD τ).loc main_arg1)
abbrev argW (c : Dev nD) : Vec Ideal S128x16 .f32 := m ((c : Thread nD τ).loc main_arg2)
abbrev argB (c : Dev nD) : Vec Ideal S16 .f32 := m ((c : Thread nD τ).loc main_arg3)

/-! ## The accumulator's rows over the extended reals

Row `r`, column `f` of the whole accumulator is the adjacency row `r` contracted with column `f` of the feature
product, plus the bias at `f`: point `r / 400` computed it from its block's row `r % 400`. -/

theorem accFull_apply (c : Dev nD) (r : Fin 10000) (f : Fin 16) :
    accFull (F := Ideal) m c (ValueIdx.ix2 r f)
      = (∑ k : Fin 10000, argAdj m c (ValueIdx.ix2 r k)
            * k0_pay1 (F := Ideal) (argX m c) (transpose S16x128 [1, 0] (argW m c) transposes_S128x16_S16x128_1_0) (ValueIdx.ix2 k f))
        + shapeCast S1x16 (argB m c) shapeCasts_S16_S1x16 (ValueIdx.ix2 (0 : Fin 1) f) := by
  have hN : r.val / 400 < cfg0.N := by
    rw [show cfg0.N = 25 from N_0]; exact Nat.div_lt_of_lt_mul r.isLt
  show slab m c ⟨r.val / 400, hN⟩ (ValueIdx.ix2 (⟨r.val % 400, Nat.mod_lt _ (by decide)⟩ : Fin 400) f) = _
  unfold slab
  rw [Cert.KernelIdeal.Payloads.pay2_apply]
  congr 1
  · refine Finset.sum_congr rfl fun k _ => ?_
    rw [iblk_adj m c ⟨r.val / 400, hN⟩ ⟨r.val % 400, Nat.mod_lt _ (by decide)⟩ k r (by
      show r.val = 400 * (r.val / 400) + r.val % 400
      omega), V_main_arg1]
    unfold support
    rw [iblk_x, iblk_wt, V_main_arg0, V_wt]
  · rw [iblk_b, V_b]

/-- The kernel's result is the layer `adj · (x · W) + bias` of its argument arrays, index by index. -/
theorem result_eq (c : Dev nD) :
    transpose S10000x16 [1, 0] (outFinal (F := Ideal) m c) transposes_S16x10000_S10000x16_1_0
      = Cert.GcnSpec.G (argX m c) (argAdj m c) (argW m c) (argB m c) :=
  Cert.KernelIdeal.KernelIsG.kernel_fn_eq (argX m c) (argAdj m c) (argW m c) (argB m c)
    transposes_S128x16_S16x128_1_0 shapeCasts_S16_S1x16 transposes_S16x10000_S10000x16_1_0 (accFull m c) (accFull_apply m c)

end Cert.KernelIdeal.Hand

end
-- ==== Proof.RefIsG.lean ====
/- The reference is the specification. The reference multiplies the features by the weights, the adjacency matrix by
   that product, and adds the bias broadcast over the rows. Read at an index (r, f), the two products are the
   specification's nested sums in the same arrangement, and the two broadcasts read the bias at f. -/
import proofs.«180025_g1580547969797_cont_week2b_876_14_alg».proof.Proof.Gen.ReferenceIdeal.Read
import proofs.«180025_g1580547969797_cont_week2b_876_14_alg».proof.Proof.Spec

noncomputable section

namespace Cert.ReferenceIdeal.RefIsG

open Cert.ReferenceIdeal Cert.ReferenceIdeal.Read Cert.GcnSpec
open Idealize.ShloMosaic Idealize.ShloMosaic.ValueIdx Idealize.SL.Sem
open scoped BigOperators

/-! ## The operand indices of each stage, by coordinates -/

theorem lidx_v1_ix (r : Fin 10000) (f : Fin 16) (k : Fin 10000) : lidx_main_v1 (ix2 r f) k = ix2 r k := by
  funext a; match a with | ⟨0, _⟩ => rfl | ⟨1, _⟩ => rfl
theorem ridx_v1_ix (r : Fin 10000) (f : Fin 16) (k : Fin 10000) : ridx_main_v1 (ix2 r f) k = ix2 k f := by
  funext a; match a with | ⟨0, _⟩ => rfl | ⟨1, _⟩ => rfl
theorem lidx_v0_ix (k : Fin 10000) (f : Fin 16) (j : Fin 128) : lidx_main_v0 (ix2 k f) j = ix2 k j := by
  funext a; match a with | ⟨0, _⟩ => rfl | ⟨1, _⟩ => rfl
theorem ridx_v0_ix (k : Fin 10000) (f : Fin 16) (j : Fin 128) : ridx_main_v0 (ix2 k f) j = ix2 j f := by
  funext a; match a with | ⟨0, _⟩ => rfl | ⟨1, _⟩ => rfl
theorem idx_v3_ix (r : Fin 10000) (f : Fin 16) : idx_main_v3 (ix2 r f) = ix2 (0 : Fin 1) f := by
  funext a; match a with | ⟨0, _⟩ => rfl | ⟨1, _⟩ => rfl
theorem idx_v2_ix (f : Fin 16) : idx_main_v2 (ix2 (0 : Fin 1) f) = ix1 f := by
  funext a; match a with | ⟨0, _⟩ => rfl

/-! ## The stages at an index -/

/-- The features times the weights at (k, f). -/
theorem v0_ix (x0 : (⟨S10000x128, .f32⟩ : BufTy).Contents (Elt Ideal)) (x2 : (⟨S128x16, .f32⟩ : BufTy).Contents (Elt Ideal))
    (k : Fin 10000) (f : Fin 16) :
    val_main_v0 (F := Ideal) x0 x2 (ix2 k f) = ∑ j : Fin 128, x0 (ix2 k j) * x2 (ix2 j f) := by
  rw [val_main_v0_apply]
  refine Finset.sum_congr rfl fun j _ => ?_
  rw [lidx_v0_ix, ridx_v0_ix]

/-- The bias broadcast to every row reads the bias at the column. -/
theorem v3_ix (x3 : (⟨S16, .f32⟩ : BufTy).Contents (Elt Ideal)) (r : Fin 10000) (f : Fin 16) :
    val_main_v3 (F := Ideal) x3 (ix2 r f) = x3 (ix1 f) := by
  rw [val_main_v3_apply, val_main_v2_apply, idx_v3_ix, idx_v2_ix]

/-- The reference's result, as a function of its four arguments, is the specification. -/
theorem ref_eq (x0 : (⟨S10000x128, .f32⟩ : BufTy).Contents (Elt Ideal)) (x1 : (⟨S10000x10000, .f32⟩ : BufTy).Contents (Elt Ideal))
    (x2 : (⟨S128x16, .f32⟩ : BufTy).Contents (Elt Ideal)) (x3 : (⟨S16, .f32⟩ : BufTy).Contents (Elt Ideal)) :
    val_main_v4 (F := Ideal) x0 x1 x2 x3 = G x0 x1 x2 x3 := by
  funext i
  obtain ⟨r, f, rfl⟩ : ∃ (r : Fin 10000) (f : Fin 16), i = ix2 r f := ⟨i 0, i 1, eq_ix2 i⟩
  rw [G_apply]
  show val_main_v1 (F := Ideal) x0 x1 x2 (ix2 r f) + val_main_v3 (F := Ideal) x3 (ix2 r f) = _
  rw [val_main_v1_apply, v3_ix]
  congr 1
  refine Finset.sum_congr rfl fun k _ => ?_
  rw [lidx_v1_ix, ridx_v1_ix, v0_ix]

end Cert.ReferenceIdeal.RefIsG

end
-- ==== Proof.lean ====
/-
  A graph-convolution layer, `out = adj · (x · W) + bias` with `x : f32[10000, 128]`, a dense `adj : f32[10000, 10000]`,
  `W : f32[128, 16]` and `bias : f32[16]`, as ONE kernel on a grid of 25 points against the plain two-product reference.

  The kernel is handed `W` transposed and the bias as one row. At the first point it contracts the features with the
  transposed weights and keeps the whole product `x · W` in a scratch buffer; at every point `t` it contracts its block of
  400 adjacency rows with that product, adds the bias row, and stores the 400 result rows as rows `[400 t, 400 t + 400)` of
  a second scratch buffer, the accumulator; at the last point it stores the transpose of the whole accumulator into its one
  output block, which is written back once, and a host line transposes the array back.

  Between points the invariant holds the product in the first scratch buffer and says the accumulator is right on its first
  `400 n` rows after `n` points; a point's store of whole rows overwrites exactly its own rows, so after the 25th point the
  accumulator is right on all 10000 rows. Row `r`, column `f` of it is
  `(∑ k, adj r k * ∑ j, x k j * W j f) + bias f` on the extended reals, which is the reference's element as it stands:
  the two sides contract in the same arrangement, a product into a zero accumulator is the plain sum, and nothing is
  regrouped, so finiteness of the inputs is never used.

  The frames of both readings of the kernel are the same run with the value forgotten; the reference's is its run.
-/
import proofs.«180025_g1580547969797_cont_week2b_876_14_alg».proof.Defs
import proofs.«180025_g1580547969797_cont_week2b_876_14_alg».proof.Proof.Gen.Kernel
import proofs.«180025_g1580547969797_cont_week2b_876_14_alg».proof.Proof.Gen.KernelIdeal
import proofs.«180025_g1580547969797_cont_week2b_876_14_alg».proof.Proof.Gen.ReferenceIdeal
import proofs.«180025_g1580547969797_cont_week2b_876_14_alg».proof.Proof.Gen.ReferenceIdeal.Run
import proofs.«180025_g1580547969797_cont_week2b_876_14_alg».proof.Proof.Gen.ReferenceIdeal.Read
import proofs.«180025_g1580547969797_cont_week2b_876_14_alg».proof.Proof.Gen.Pre_finite_inputs
import proofs.«180025_g1580547969797_cont_week2b_876_14_alg».proof.Proof.KBData
import proofs.«180025_g1580547969797_cont_week2b_876_14_alg».proof.Proof.KIAlgebra
import proofs.«180025_g1580547969797_cont_week2b_876_14_alg».proof.Proof.RefIsG
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer `adj · (x · W) + bias` of the arguments they agree on. -/
theorem algebraic : Cert.algebraic_KernelIdeal_ReferenceIdeal := by
  intro m ρ m' ρ' _ hagree
  refine ⟨fun c => Cert.GcnSpec.G (Cert.KernelIdeal.Hand.argX m c) (Cert.KernelIdeal.Hand.argAdj m c)
    (Cert.KernelIdeal.Hand.argW m c) (Cert.KernelIdeal.Hand.argB m c), ?_, ?_⟩
  · exact (θ_run Cert.KernelIdeal.defs _ _).mono
      (fun _ h c => ⟨(h c).1.trans (Cert.KernelIdeal.Hand.result_eq m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefIsG.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
